-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v11_0)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v11_0) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S16x2048x2 : Shape := ⟨3, ![16, 2048, 2]⟩
abbrev S131072 : Shape := ⟨1, ![131072]⟩
abbrev S64x16x2048x2 : Shape := ⟨4, ![64, 16, 2048, 2]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S16x2048x2 : S_.BroadcastsInDim S16x2048x2 (![] : Fin 0 → Fin S16x2048x2.rank)
  reducesTo_S16x2048x2_S_d0_1_2 : S16x2048x2.ReducesTo [0, 1, 2] S_
  bcast_S_S64x16x2048x2 : S_.BroadcastsInDim S64x16x2048x2 (![] : Fin 0 → Fin S64x16x2048x2.rank)
  reducesTo_S64x16x2048x2_S_d0_1_2_3 : S64x16x2048x2.ReducesTo [0, 1, 2, 3] S_

variable [Facts]

def fn_part1 {F : FTy → Type} [FloatOps F] (main_arg3 : FVec F S64x16x2048x2 .f32) (main_v13 : IVec S_ 1) (main_v15 : IVec S64x16x2048x2 1) (main_c_5 : IVec S_ 1) : IVec S_ 1 :=
  let main_v16 : IVec S_ 1 := (fun x v => Host.reduce IntOp.andi x v reducesTo_S64x16x2048x2_S_d0_1_2_3 h_S_) main_v15 main_c_5
  let main_v17 : IVec S_ 1 := andi main_v13 main_v16
  let main_cst_6 : FVec F S_ .f32 := constant S_ .f32 0x3F800000#32
  let main_v18 : FVec F S64x16x2048x2 .f32 := broadcastInDim S64x16x2048x2 ![] bcast_S_S64x16x2048x2 main_cst_6
  let main_v19 : IVec S64x16x2048x2 1 := cmpf .olt main_arg3 main_v18
  let main_c_7 : IVec S_ 1 := constantI S_ 1 1#1
  let main_v20 : IVec S_ 1 := (fun x v => Host.reduce IntOp.andi x v reducesTo_S64x16x2048x2_S_d0_1_2_3 h_S_) main_v19 main_c_7
  let main_v21 : IVec S_ 1 := andi main_v17 main_v20
  main_v21

def fn {F : FTy → Type} [FloatOps F] (main_arg0 : FVec F S131072x256 .f32) (main_arg1 : FVec F S16x2048x2 .f32) (main_arg2 : IVec S131072 32) (main_arg3 : FVec F S64x16x2048x2 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S16x2048x2 .f32 := Host.absf main_arg1
  let main_cst_0 : FVec F S_ .f32 := constant S_ .f32 0x7F800000#32
  let main_v5 : FVec F S16x2048x2 .f32 := broadcastInDim S16x2048x2 ![] bcast_S_S16x2048x2 main_cst_0
  let main_v6 : IVec S16x2048x2 1 := cmpf .olt main_v4 main_v5
  let main_c_1 : IVec S_ 1 := constantI S_ 1 1#1
  let main_v7 : IVec S_ 1 := (fun x v => Host.reduce IntOp.andi x v reducesTo_S16x2048x2_S_d0_1_2 h_S_) main_v6 main_c_1
  let main_v8 : IVec S_ 1 := andi main_v3 main_v7
  let main_v9 : FVec F S64x16x2048x2 .f32 := Host.absf main_arg3
  let main_cst_2 : FVec F S_ .f32 := constant S_ .f32 0x7F800000#32
  let main_v10 : FVec F S64x16x2048x2 .f32 := broadcastInDim S64x16x2048x2 ![] bcast_S_S64x16x2048x2 main_cst_2
  let main_v11 : IVec S64x16x2048x2 1 := cmpf .olt main_v9 main_v10
  let main_c_3 : IVec S_ 1 := constantI S_ 1 1#1
  let main_v12 : IVec S_ 1 := (fun x v => Host.reduce IntOp.andi x v reducesTo_S64x16x2048x2_S_d0_1_2_3 h_S_) main_v11 main_c_3
  let main_v13 : IVec S_ 1 := andi main_v8 main_v12
  let main_cst_4 : FVec F S_ .f32 := constant S_ .f32 0x00000000#32
  let main_v14 : FVec F S64x16x2048x2 .f32 := broadcastInDim S64x16x2048x2 ![] bcast_S_S64x16x2048x2 main_cst_4
  let main_v15 : IVec S64x16x2048x2 1 := cmpf .ogt main_arg3 main_v14
  let main_c_5 : IVec S_ 1 := constantI S_ 1 1#1
  fn_part1 (F := F) main_arg3 main_v13 main_v15 main_c_5
-- ==== Kernel.lean ====
abbrev S131072x256 : Shape := ⟨2, ![131072, 256]⟩
abbrev S16x2048x2 : Shape := ⟨3, ![16, 2048, 2]⟩
abbrev S131072 : Shape := ⟨1, ![131072]⟩
abbrev S64x16x2048x2 : Shape := ⟨4, ![64, 16, 2048, 2]⟩
abbrev S_ : Shape := ⟨0, ![]⟩
abbrev S16x2048 : Shape := ⟨2, ![16, 2048]⟩
abbrev S16x2048x1 : Shape := ⟨3, ![16, 2048, 1]⟩
abbrev S64x2048x256 : Shape := ⟨3, ![64, 2048, 256]⟩
abbrev S64x16x2048x1 : Shape := ⟨4, ![64, 16, 2048, 1]⟩
abbrev S64x16x2048 : Shape := ⟨3, ![64, 16, 2048]⟩
abbrev S64x16x256 : Shape := ⟨3, ![64, 16, 256]⟩
abbrev S4x2048x256 : Shape := ⟨3, ![4, 2048, 256]⟩
abbrev S4x16x2048 : Shape := ⟨3, ![4, 16, 2048]⟩
abbrev S4x16x256 : Shape := ⟨3, ![4, 16, 256]⟩
abbrev S1x16x2048 : Shape := ⟨3, ![1, 16, 2048]⟩
abbrev S4x16 : Shape := ⟨2, ![4, 16]⟩
abbrev S4x16x1 : Shape := ⟨3, ![4, 16, 1]⟩
abbrev S1024x256 : Shape := ⟨2, ![1024, 256]⟩
abbrev S64 : Shape := ⟨1, ![64]⟩
abbrev S64x16 : Shape := ⟨2, ![64, 16]⟩
abbrev S1024 : Shape := ⟨1, ![1024]⟩

abbrev nBuf : Space → Nat
  | .hbm => 39
  | .vmem => 11
  | .smem => 0
  | _ => 0

abbrev bufTy : (tb : Table) → Fin (tcTables nBuf tb) → BufTy
  | .hbm, ⟨0, _⟩ => ⟨S131072x256, .f32⟩
  | .hbm, ⟨1, _⟩ => ⟨S16x2048x2, .f32⟩
  | .hbm, ⟨2, _⟩ => ⟨S131072, .i32⟩
  | .hbm, ⟨3, _⟩ => ⟨S64x16x2048x2, .f32⟩
  | .hbm, ⟨4, _⟩ => ⟨S_, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x2048x1, .f32⟩
  | .hbm, ⟨10, _⟩ => ⟨S16x2048x2, .f32⟩
  | .hbm, ⟨11, _⟩ => ⟨S16x2048x2, .f32⟩
  | .hbm, ⟨12, _⟩ => ⟨S16x2048x2, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S16x2048x1, .f32⟩
  | .hbm, ⟨17, _⟩ => ⟨S16x2048x2, .f32⟩
  | .hbm, ⟨18, _⟩ => ⟨S16x2048x2, .f32⟩
  | .hbm, ⟨19, _⟩ => ⟨S16x2048x1, .f32⟩
  | .hbm, ⟨20, _⟩ => ⟨S16x2048, .f32⟩
  | .hbm, ⟨21, _⟩ => ⟨S16x2048x1, .f32⟩
  | .hbm, ⟨22, _⟩ => ⟨S16x2048, .f32⟩
  | .hbm, ⟨23, _⟩ => ⟨S16x2048, .f32⟩
  | .hbm, ⟨24, _⟩ => ⟨S64x2048x256, .f32⟩
  | .hbm, ⟨25, _⟩ => ⟨S64x16x2048x1, .f32⟩
  | .hbm, ⟨26, _⟩ => ⟨S64x16x2048, .f32⟩
  | .hbm, ⟨27, _⟩ => ⟨S64x16x2048x1, .f32⟩
  | .hbm, ⟨28, _⟩ => ⟨S64x16x2048, .f32⟩
  | .hbm, ⟨29, _⟩ => ⟨S64x16x2048, .f32⟩
  | .hbm, ⟨30, _⟩ => ⟨S64x16x256, .f32⟩
  | .hbm, ⟨31, _⟩ => ⟨S1024x256, .f32⟩
  | .hbm, ⟨32, _⟩ => ⟨S16x2048x1, .f32⟩
  | .hbm, ⟨33, _⟩ => ⟨S16x2048, .f32⟩
  | .hbm, ⟨34, _⟩ => ⟨S1x16x2048, .f32⟩
  | .hbm, ⟨35, _⟩ => ⟨S64x16x2048, .f32⟩
  | .hbm, ⟨36, _⟩ => ⟨S64, .i32⟩
  | .hbm, ⟨37, _⟩ => ⟨S64x16, .i32⟩
  | .hbm, ⟨38, _⟩ => ⟨S1024, .i32⟩
  | .local _ .vmem, ⟨0, _⟩ => ⟨S4x2048x256, .f32⟩
  | .local _ .vmem, ⟨1, _⟩ => ⟨S4x2048x256, .f32⟩
  | .local _ .vmem, ⟨2, _⟩ => ⟨S4x16x2048, .f32⟩
  | .local _ .vmem, ⟨3, _⟩ => ⟨S4x16x2048, .f32⟩
  | .local _ .vmem, ⟨4, _⟩ => ⟨S4x16x2048, .f32⟩
  | .local _ .vmem, ⟨5, _⟩ => ⟨S4x16x2048, .f32⟩
  | .local _ .vmem, ⟨6, _⟩ => ⟨S16x2048, .f32⟩
  | .local _ .vmem, ⟨7, _⟩ => ⟨S4x16x2048, .f32⟩
  | .local _ .vmem, ⟨8, _⟩ => ⟨S4x16x2048, .f32⟩
  | .local _ .vmem, ⟨9, _⟩ => ⟨S4x16x256, .f32⟩
  | .local _ .vmem, ⟨10, _⟩ => ⟨S4x16x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S16x2048x2_S16x2048_d2 : S16x2048x2.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2_0_1_2 : S16x2048x1.BroadcastsInDim S16x2048x2 (![0, 1, 2] : Fin 3 → Fin S16x2048x2.rank)
  slices_S16x2048x2_S16x2048x1_0_0_1 : S16x2048x2.Slices ![0, 0, 1] S16x2048x1
  shapeCasts_S16x2048x1_S16x2048 : S16x2048x1.ShapeCasts S16x2048
  slices_S16x2048x2_S16x2048x1_0_0_0 : S16x2048x2.Slices ![0, 0, 0] S16x2048x1
  shapeCasts_S131072x256_S64x2048x256 : S131072x256.ShapeCasts S64x2048x256
  slices_S64x16x2048x2_S64x16x2048x1_0_0_0_0 : S64x16x2048x2.Slices ![0, 0, 0, 0] S64x16x2048x1
  shapeCasts_S64x16x2048x1_S64x16x2048 : S64x16x2048x1.ShapeCasts S64x16x2048
  slices_S64x16x2048x2_S64x16x2048x1_0_0_0_1 : S64x16x2048x2.Slices ![0, 0, 0, 1] S64x16x2048x1
  inb_S4x2048x256_S4x2048x256_0_0_0 : ∀ a, (![0, 0, 0] : Fin 3 → Nat) a + S4x2048x256.size a ≤ S4x2048x256.size a
  h_S4x2048x256 : 0 < S4x2048x256.numel
  shapeCasts_S4x2048x256_S4x2048x256 : S4x2048x256.ShapeCasts S4x2048x256
  inb_S4x16x2048_S4x16x2048_0_0_0 : ∀ a, (![0, 0, 0] : Fin 3 → Nat) a + S4x16x2048.size a ≤ S4x16x2048.size a
  h_S4x16x2048 : 0 < S4x16x2048.numel
  shapeCasts_S4x16x2048_S4x16x2048 : S4x16x2048.ShapeCasts S4x16x2048
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  shapeCasts_S16x2048_S1x16x2048 : S16x2048.ShapeCasts S1x16x2048
  broadcasts_S1x16x2048_S4x16x2048 : S1x16x2048.Broadcasts S4x16x2048
  bitsLt_bf16_f32 : FTy.bits .bf16 < FTy.bits .f32
  reduces_S4x16x2048_S4x16 : S4x16x2048.Reduces [2] S4x16
  shapeCasts_S4x16_S4x16x1 : S4x16.ShapeCasts S4x16x1
  broadcasts_S4x16x1_S4x16x256 : S4x16x1.Broadcasts S4x16x256
  inb_S4x16x256_S4x16x256_0_0_0 : ∀ a, (![0, 0, 0] : Fin 3 → Nat) a + S4x16x256.size a ≤ S4x16x256.size a
  h_S4x16x256 : 0 < S4x16x256.numel
  shapeCasts_S64x16x256_S1024x256 : S64x16x256.ShapeCasts S1024x256
  bcast_S16x2048_S1x16x2048_1_2 : S16x2048.BroadcastsInDim S1x16x2048 (![1, 2] : Fin 2 → Fin S1x16x2048.rank)
  bcast_S1x16x2048_S64x16x2048_0_1_2 : S1x16x2048.BroadcastsInDim S64x16x2048 (![0, 1, 2] : Fin 3 → Fin S64x16x2048.rank)
  bcast_S64_S64x16_0 : S64.BroadcastsInDim S64x16 (![0] : Fin 1 → Fin S64x16.rank)
  shapeCasts_S64x16_S1024 : S64x16.ShapeCasts S1024
  dot_S4x16x2048_S4x2048x256_S4x16x256_2_1_1_2_0_0_wf : DotDims.WF S4x16x2048 S4x2048x256 S4x16x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x2048x256.size a ≤ S64x2048x256.size a
  hwx0_0 : ∀ i : grid0.Coords, EltTy.bits .f32 = 32 ∨ (Rect.block (s := S64x2048x256) S4x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16x2048.size a ≤ S64x16x2048.size a
  hwx0_1 : ∀ i : grid0.Coords, EltTy.bits .f32 = 32 ∨ (Rect.block (s := S64x16x2048) S4x16x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x16x2048.size a ≤ S64x16x2048.size a
  hwx0_2 : ∀ i : grid0.Coords, EltTy.bits .f32 = 32 ∨ (Rect.block (s := S64x16x2048) S4x16x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x2048.size a ≤ S16x2048.size a
  hwx0_3 : ∀ i : grid0.Coords, EltTy.bits .f32 = 32 ∨ (Rect.block (s := S16x2048) S16x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x16x2048.size a ≤ S64x16x2048.size a
  hwx0_4 : ∀ i : grid0.Coords, EltTy.bits .f32 = 32 ∨ (Rect.block (s := S64x16x2048) S4x16x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x16x256.size a ≤ S64x16x256.size a
  hwx0_5 : ∀ i : grid0.Coords, EltTy.bits .f32 = 32 ∨ (Rect.block (s := S64x16x256) S4x16x256.size (cc0_transform_5 i) (hinb0_5 i)).WholeWords (EltTy.packing .f32)

variable [Facts₀]

def dot_S4x16x2048_S4x2048x256_S4x16x256_2_1_1_2_0_0 : DotDims S4x16x2048 S4x2048x256 S4x16x256 where
  lhsContracting := [2]
  rhsContracting := [1]
  lhsNonContracting := [1]
  rhsNonContracting := [2]
  lhsBatch := [0]
  rhsBatch := [0]
  wf := dot_S4x16x2048_S4x2048x256_S4x16x256_2_1_1_2_0_0_wf

abbrev win0_0 : Pipeline.Window sig grid0 :=
  Pipeline.Window.ofSpec (Memref.whole main_v6) S4x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4x16x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S4x16x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S16x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S4x16x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S4x16x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x256 : Shape := ⟨2, ![131072, 256]⟩
abbrev S16x2048x2 : Shape := ⟨3, ![16, 2048, 2]⟩
abbrev S131072 : Shape := ⟨1, ![131072]⟩
abbrev S64x16x2048x2 : Shape := ⟨4, ![64, 16, 2048, 2]⟩
abbrev S_ : Shape := ⟨0, ![]⟩
abbrev S16x2048 : Shape := ⟨2, ![16, 2048]⟩
abbrev S16x2048x1 : Shape := ⟨3, ![16, 2048, 1]⟩
abbrev S1x16x2048x2 : Shape := ⟨4, ![1, 16, 2048, 2]⟩
abbrev S64x16x2048 : Shape := ⟨3, ![64, 16, 2048]⟩
abbrev S64x16x2048x1 : Shape := ⟨4, ![64, 16, 2048, 1]⟩
abbrev S64x2048x256 : Shape := ⟨3, ![64, 2048, 256]⟩
abbrev S64x16x256 : Shape := ⟨3, ![64, 16, 256]⟩
abbrev S64x16 : Shape := ⟨2, ![64, 16]⟩
abbrev S64x16x1 : Shape := ⟨3, ![64, 16, 1]⟩
abbrev S1024x256 : Shape := ⟨2, ![1024, 256]⟩
abbrev S1x16x2048 : Shape := ⟨3, ![1, 16, 2048]⟩
abbrev S64 : Shape := ⟨1, ![64]⟩
abbrev S1024 : Shape := ⟨1, ![1024]⟩

abbrev nBuf : Space → Nat
  | .hbm => 60
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S16x2048x2, .f32⟩
  | .hbm, ⟨2, _⟩ => ⟨S131072, .i32⟩
  | .hbm, ⟨3, _⟩ => ⟨S64x16x2048x2, .f32⟩
  | .hbm, ⟨4, _⟩ => ⟨S_, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x2048x1, .f32⟩
  | .hbm, ⟨10, _⟩ => ⟨S16x2048x2, .f32⟩
  | .hbm, ⟨11, _⟩ => ⟨S16x2048x2, .f32⟩
  | .hbm, ⟨12, _⟩ => ⟨S16x2048x2, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S16x2048x1, .f32⟩
  | .hbm, ⟨17, _⟩ => ⟨S16x2048x2, .f32⟩
  | .hbm, ⟨18, _⟩ => ⟨S16x2048x2, .f32⟩
  | .hbm, ⟨19, _⟩ => ⟨S1x16x2048x2, .f32⟩
  | .hbm, ⟨20, _⟩ => ⟨S64x16x2048x2, .f32⟩
  | .hbm, ⟨21, _⟩ => ⟨S64x16x2048x2, .f32⟩
  | .hbm, ⟨22, _⟩ => ⟨S64x16x2048x2, .f32⟩
  | .hbm, ⟨23, _⟩ => ⟨S64x16x2048x2, .f32⟩
  | .hbm, ⟨24, _⟩ => ⟨S64x16x2048x2, .f32⟩
  | .hbm, ⟨25, _⟩ => ⟨S64x16x2048x2, .f32⟩
  | .hbm, ⟨26, _⟩ => ⟨S_, .f32⟩
  | .hbm, ⟨27, _⟩ => ⟨S64x16x2048, .f32⟩
  | .hbm, ⟨28, _⟩ => ⟨S_, .f32⟩
  | .hbm, ⟨29, _⟩ => ⟨S64x16x2048, .f32⟩
  | .hbm, ⟨30, _⟩ => ⟨S64x16x2048, .f32⟩
  | .hbm, ⟨31, _⟩ => ⟨S64x16x2048x1, .f32⟩
  | .hbm, ⟨32, _⟩ => ⟨S64x16x2048x2, .f32⟩
  | .hbm, ⟨33, _⟩ => ⟨S64x16x2048x2, .f32⟩
  | .hbm, ⟨34, _⟩ => ⟨S64x16x2048x2, .f32⟩
  | .hbm, ⟨35, _⟩ => ⟨S_, .f32⟩
  | .hbm, ⟨36, _⟩ => ⟨S64x16x2048, .f32⟩
  | .hbm, ⟨37, _⟩ => ⟨S64x16x2048x1, .f32⟩
  | .hbm, ⟨38, _⟩ => ⟨S64x16x2048x2, .f32⟩
  | .hbm, ⟨39, _⟩ => ⟨S64x16x2048x2, .f32⟩
  | .hbm, ⟨40, _⟩ => ⟨S64x16x2048x1, .f32⟩
  | .hbm, ⟨41, _⟩ => ⟨S64x16x2048, .f32⟩
  | .hbm, ⟨42, _⟩ => ⟨S64x2048x256, .f32⟩
  | .hbm, ⟨43, _⟩ => ⟨S64x16x256, .f32⟩
  | .hbm, ⟨44, _⟩ => ⟨S_, .f32⟩
  | .hbm, ⟨45, _⟩ => ⟨S64x16, .f32⟩
  | .hbm, ⟨46, _⟩ => ⟨S64x16x1, .f32⟩
  | .hbm, ⟨47, _⟩ => ⟨S_, .f32⟩
  | .hbm, ⟨48, _⟩ => ⟨S64x16x1, .f32⟩
  | .hbm, ⟨49, _⟩ => ⟨S64x16x1, .f32⟩
  | .hbm, ⟨50, _⟩ => ⟨S64x16x256, .f32⟩
  | .hbm, ⟨51, _⟩ => ⟨S64x16x256, .f32⟩
  | .hbm, ⟨52, _⟩ => ⟨S1024x256, .f32⟩
  | .hbm, ⟨53, _⟩ => ⟨S16x2048x1, .f32⟩
  | .hbm, ⟨54, _⟩ => ⟨S16x2048, .f32⟩
  | .hbm, ⟨55, _⟩ => ⟨S1x16x2048, .f32⟩
  | .hbm, ⟨56, _⟩ => ⟨S64x16x2048, .f32⟩
  | .hbm, ⟨57, _⟩ => ⟨S64, .i32⟩
  | .hbm, ⟨58, _⟩ => ⟨S64x16, .i32⟩
  | .hbm, ⟨59, _⟩ => ⟨S1024, .i32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩

abbrev nD : Nat := 1
abbrev τ : Topo := Topo.v7x

variable {F : FTy → Type} [FloatOps F]

class Facts₀ : Prop where
  reducesTo_S16x2048x2_S16x2048_d2 : S16x2048x2.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2_0_1_2 : S16x2048x1.BroadcastsInDim S16x2048x2 (![0, 1, 2] : Fin 3 → Fin S16x2048x2.rank)
  bcast_S16x2048x2_S1x16x2048x2_1_2_3 : S16x2048x2.BroadcastsInDim S1x16x2048x2 (![1, 2, 3] : Fin 3 → Fin S1x16x2048x2.rank)
  bcast_S1x16x2048x2_S64x16x2048x2_0_1_2_3 : S1x16x2048x2.BroadcastsInDim S64x16x2048x2 (![0, 1, 2, 3] : Fin 4 → Fin S64x16x2048x2.rank)
  reducesTo_S64x16x2048x2_S64x16x2048_d3 : S64x16x2048x2.ReducesTo [3] S64x16x2048
  bcast_S_S64x16x2048 : S_.BroadcastsInDim S64x16x2048 (![] : Fin 0 → Fin S64x16x2048.rank)
  bcast_S64x16x2048_S64x16x2048x1_0_1_2 : S64x16x2048.BroadcastsInDim S64x16x2048x1 (![0, 1, 2] : Fin 3 → Fin S64x16x2048x1.rank)
  bcast_S64x16x2048x1_S64x16x2048x2_0_1_2_3 : S64x16x2048x1.BroadcastsInDim S64x16x2048x2 (![0, 1, 2, 3] : Fin 4 → Fin S64x16x2048x2.rank)
  slices_S64x16x2048x2_S64x16x2048x1_0_0_0_1 : S64x16x2048x2.Slices ![0, 0, 0, 1] S64x16x2048x1
  shapeCasts_S64x16x2048x1_S64x16x2048 : S64x16x2048x1.ShapeCasts S64x16x2048
  shapeCasts_S131072x256_S64x2048x256 : S131072x256.ShapeCasts S64x2048x256
  reducesTo_S64x16x2048_S64x16_d2 : S64x16x2048.ReducesTo [2] S64x16
  bcast_S64x16_S64x16x1_0_1 : S64x16.BroadcastsInDim S64x16x1 (![0, 1] : Fin 2 → Fin S64x16x1.rank)
  bcast_S_S64x16x1 : S_.BroadcastsInDim S64x16x1 (![] : Fin 0 → Fin S64x16x1.rank)
  bcast_S64x16x1_S64x16x256_0_1_2 : S64x16x1.BroadcastsInDim S64x16x256 (![0, 1, 2] : Fin 3 → Fin S64x16x256.rank)
  shapeCasts_S64x16x256_S1024x256 : S64x16x256.ShapeCasts S1024x256
  slices_S16x2048x2_S16x2048x1_0_0_1 : S16x2048x2.Slices ![0, 0, 1] S16x2048x1
  shapeCasts_S16x2048x1_S16x2048 : S16x2048x1.ShapeCasts S16x2048
  bcast_S16x2048_S1x16x2048_1_2 : S16x2048.BroadcastsInDim S1x16x2048 (![1, 2] : Fin 2 → Fin S1x16x2048.rank)
  bcast_S1x16x2048_S64x16x2048_0_1_2 : S1x16x2048.BroadcastsInDim S64x16x2048 (![0, 1, 2] : Fin 3 → Fin S64x16x2048.rank)
  bcast_S64_S64x16_0 : S64.BroadcastsInDim S64x16 (![0] : Fin 1 → Fin S64x16.rank)
  shapeCasts_S64x16_S1024 : S64x16.ShapeCasts S1024
  dot_S64x16x2048_S64x2048x256_S64x16x256_2_1_1_2_0_0_wf : DotDims.WF S64x16x2048 S64x2048x256 S64x16x256 [2] [1] [1] [2] [0] [0]

variable [Facts₀]

def dot_S64x16x2048_S64x2048x256_S64x16x256_2_1_1_2_0_0 : DotDims S64x16x2048 S64x2048x256 S64x16x256 where
  lhsContracting := [2]
  rhsContracting := [1]
  lhsNonContracting := [1]
  rhsNonContracting := [2]
  lhsBatch := [0]
  rhsBatch := [0]
  wf := dot_S64x16x2048_S64x2048x256_S64x16x256_2_1_1_2_0_0_wf

class Facts : Prop extends Facts₀ where

variable [Facts]
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.KHost.lean ====
/-
  The arrays the kernel's region finds, as functions of the program's arguments. Before the region the program runs
  the log-softmax of the mask logits (the same fifteen operations the reference runs: their result is the reference's
  stage of the logits) and ten layout operations: the difference of the two channels of the log-probabilities, the
  feature table reshaped per graph, and the two channels of the draws.
-/
import proofs.«126894_j51436528337257_2_alg».proof.Proof.Gen.KernelIdeal.Frame
import proofs.«126894_j51436528337257_2_alg».proof.Proof.RefRead
import proofs.«126894_j51436528337257_2_alg».proof.Proof.LibAfterAppend

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

/-! ## The log-softmax stretch -/

set_option maxRecDepth 100000 in
theorem lsm_v0 : after hostOps0 W (Proc.devRef .tc main_v0)
    = Cert.ReferenceIdeal.ReadP.val_main_v0 (F := F) (W (Proc.devRef .tc main_arg1)) := by
  after_results; rfl
theorem lsm_arg0 : after hostOps0 W (Proc.devRef .tc main_arg0) = W (Proc.devRef .tc main_arg0) := by after_results
theorem lsm_arg3 : after hostOps0 W (Proc.devRef .tc main_arg3) = W (Proc.devRef .tc main_arg3) := by after_results

/-! ## The layout stretch -/

theorem lay_v5 : after hostOps0_1 W (Proc.devRef .tc main_v5)
    = subf (shapeCast S16x2048 (extractStridedSlice S16x2048x1 ![0, 0, 1] (W (Proc.devRef .tc main_v0)) slices_S16x2048x2_S16x2048x1_0_0_1) shapeCasts_S16x2048x1_S16x2048)
        (shapeCast S16x2048 (extractStridedSlice S16x2048x1 ![0, 0, 0] (W (Proc.devRef .tc main_v0)) slices_S16x2048x2_S16x2048x1_0_0_0) shapeCasts_S16x2048x1_S16x2048) := by
  after_results; rfl
theorem lay_v6 : after hostOps0_1 W (Proc.devRef .tc main_v6)
    = shapeCast S64x2048x256 (W (Proc.devRef .tc main_arg0)) shapeCasts_S131072x256_S64x2048x256 := by
  after_results; rfl
theorem lay_v8 : after hostOps0_1 W (Proc.devRef .tc main_v8)
    = shapeCast S64x16x2048 (extractStridedSlice S64x16x2048x1 ![0, 0, 0, 0] (W (Proc.devRef .tc main_arg3)) slices_S64x16x2048x2_S64x16x2048x1_0_0_0_0) shapeCasts_S64x16x2048x1_S64x16x2048 := by
  after_results; rfl
theorem lay_v10 : after hostOps0_1 W (Proc.devRef .tc main_v10)
    = shapeCast S64x16x2048 (extractStridedSlice S64x16x2048x1 ![0, 0, 0, 1] (W (Proc.devRef .tc main_arg3)) slices_S64x16x2048x2_S64x16x2048x1_0_0_0_1) shapeCasts_S64x16x2048x1_S64x16x2048 := by
  after_results; rfl

end Cert.KernelIdeal.Host

end
-- ==== Proof.Spec.lean ====
/-
  The mathematics both programs compute, stated once over plain index sets.

  A graph g, a hyper-node r and a node n carry two uniform draws u₀, u₁ (the last axis of the draws array) and two
  log-probabilities a₀, a₁ (the log-softmax of the mask logits at (r, n), the same for every graph). The soft mask is
  channel 1 of the softmax of the two scores a_c + gum u_c, where gum u = −log(−log u) is Gumbel noise. The pooled
  feature of (g, r) at a column d is the mask-weighted sum of the graph's node features divided by the mask row's sum
  plus a small constant.
-/
import Idealize.ShloMosaic.PureOps.Ideal
import Idealize.ShloMosaic.Lib.ValueIdx

noncomputable section

open scoped BigOperators

namespace Cert.Spec

open Idealize.ShloMosaic Idealize.ShloMosaic.ValueIdx

/-- The constant added to a mask row's sum: the binary value of the f32 word both programs carry. -/
def eps : EReal := Ideal.ofBits .f32 0x358637BD#32

/-- Gumbel noise of a uniform draw: −log(−log u), with the ideal logarithm. -/
def gum (u : EReal) : EReal := -(Ideal.log (-(Ideal.log u)))

/-- Channel 1 of the softmax over the two scores a₀ + gum u₀ and a₁ + gum u₁, shifted by their maximum. -/
def softmask (a0 a1 u0 u1 : EReal) : EReal :=
  Ideal.div (Ideal.exp ((a1 + gum u1) - max (a0 + gum u0) (a1 + gum u1)))
    (Ideal.exp ((a0 + gum u0) - max (a0 + gum u0) (a1 + gum u1)) + Ideal.exp ((a1 + gum u1) - max (a0 + gum u0) (a1 + gum u1)))

/-- The same mask as the logistic function of the difference of the two scores, in the order the arithmetic is done:
    ((a₁ − a₀) + (0 − log(0 − log u₁))) − (0 − log(0 − log u₀)). -/
def sigmask (a0 a1 u0 u1 : EReal) : EReal :=
  Ideal.logistic (((a1 - a0) + (0 - Ideal.log (0 - Ideal.log u1))) - (0 - Ideal.log (0 - Ideal.log u0)))

/-- The masks: at graph g, hyper-node r, node n, the soft mask of the log-probabilities at (r, n) and the draws at (g, r, n). -/
def masks (LP : (⟨3, ![16, 2048, 2]⟩ : Shape).Idx → EReal) (U : (⟨4, ![64, 16, 2048, 2]⟩ : Shape).Idx → EReal)
    (g : Fin 64) (r : Fin 16) (n : Fin 2048) : EReal :=
  softmask (LP (ix3 r n 0)) (LP (ix3 r n 1)) (U (ix4 g r n 0)) (U (ix4 g r n 1))

/-- Row g·2048 + n of the flat feature table: node n of graph g. -/
def node (g : Fin 64) (n : Fin 2048) : Fin 131072 := ⟨g.val * 2048 + n.val, by have := g.isLt; have := n.isLt; omega⟩

/-- The pooled feature of (g, r) at column d: the mask-weighted sum over the graph's nodes, over the mask row's sum
    plus the constant. -/
def pooled (X : (⟨2, ![131072, 256]⟩ : Shape).Idx → EReal) (mk : Fin 64 → Fin 16 → Fin 2048 → EReal)
    (g : Fin 64) (r : Fin 16) (d : Fin 256) : EReal :=
  Ideal.div (∑ n : Fin 2048, mk g r n * X (ix2 (node g n) d)) ((∑ n : Fin 2048, mk g r n) + eps)

end Cert.Spec

end
-- ==== Proof.KBlocks.lean ====
/-
  What each input window's block holds at a grid point, in terms of the program's arguments. Point t handles the four
  graphs 4t … 4t + 3. Its block of the first-channel draws at (b, r, n) is the draws array at (4t + b, r, n, 0); of the
  second-channel draws, the array at (4t + b, r, n, 1); its block of the reshaped feature table at (b, n, d) is row
  (4t + b)·2048 + n, column d of the table; and the difference of log-probabilities, the same whole [16, 2048] array at
  every point, is at (r, n) the log-softmax of the logits at (r, n, 1) minus that at (r, n, 0).
-/
import proofs.«126894_j51436528337257_2_alg».proof.Proof.KHost
import proofs.«126894_j51436528337257_2_alg».proof.Proof.Spec
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.StableHlo Idealize.ShloMosaic.ValueIdx

/-! ## The layout operations before the region, read at an index -/

/-- Channel 0 of the draws, its unit axis dropped: at (g, r, n) the draws at (g, r, n, 0). -/
theorem u0_at (U : S64x16x2048x2.Idx → EReal) (k : S64x16x2048.Idx) (g : Fin 64) (r : Fin 16) (n : Fin 2048)
    (h0 : (k 0).val = g.val) (h1 : (k 1).val = r.val) (h2 : (k 2).val = n.val) :
    shapeCast S64x16x2048 (extractStridedSlice S64x16x2048x1 ![0, 0, 0, 0] U slices_S64x16x2048x2_S64x16x2048x1_0_0_0_0) shapeCasts_S64x16x2048x1_S64x16x2048 k
      = U (ix4 g r n 0) := by
  rw [shapeCast_apply _ shapeCasts_S64x16x2048x1_S64x16x2048 k (ix4 g r n (0 : Fin 1)) (by
    rewrite [Shape.rowMajor_val_four, Shape.rowMajor_val_three]
    show ((g.val * 16 + r.val) * 2048 + n.val) * 1 + 0 = ((k 0).val * 16 + (k 1).val) * 2048 + (k 2).val
    rw [h0, h1, h2]; omega)]
  exact extractStridedSlice_apply ![0, 0, 0, 0] U slices_S64x16x2048x2_S64x16x2048x1_0_0_0_0 (ix4 g r n (0 : Fin 1)) (ix4 g r n (0 : Fin 2)) (fun a => match a with
    | ⟨0, _⟩ => by show g.val = 0 + g.val; omega
    | ⟨1, _⟩ => by show r.val = 0 + r.val; omega
    | ⟨2, _⟩ => by show n.val = 0 + n.val; omega
    | ⟨3, _⟩ => by show 0 = 0 + 0; rfl)

/-- Channel 1 of the draws, its unit axis dropped: at (g, r, n) the draws at (g, r, n, 1). -/
theorem u1_at (U : S64x16x2048x2.Idx → EReal) (k : S64x16x2048.Idx) (g : Fin 64) (r : Fin 16) (n : Fin 2048)
    (h0 : (k 0).val = g.val) (h1 : (k 1).val = r.val) (h2 : (k 2).val = n.val) :
    shapeCast S64x16x2048 (extractStridedSlice S64x16x2048x1 ![0, 0, 0, 1] U slices_S64x16x2048x2_S64x16x2048x1_0_0_0_1) shapeCasts_S64x16x2048x1_S64x16x2048 k
      = U (ix4 g r n 1) := by
  rw [shapeCast_apply _ shapeCasts_S64x16x2048x1_S64x16x2048 k (ix4 g r n (0 : Fin 1)) (by
    rewrite [Shape.rowMajor_val_four, Shape.rowMajor_val_three]
    show ((g.val * 16 + r.val) * 2048 + n.val) * 1 + 0 = ((k 0).val * 16 + (k 1).val) * 2048 + (k 2).val
    rw [h0, h1, h2]; omega)]
  exact extractStridedSlice_apply ![0, 0, 0, 1] U slices_S64x16x2048x2_S64x16x2048x1_0_0_0_1 (ix4 g r n (0 : Fin 1)) (ix4 g r n (1 : Fin 2)) (fun a => match a with
    | ⟨0, _⟩ => by show g.val = 0 + g.val; omega
    | ⟨1, _⟩ => by show r.val = 0 + r.val; omega
    | ⟨2, _⟩ => by show n.val = 0 + n.val; omega
    | ⟨3, _⟩ => by show 1 = 1 + 0; rfl)

/-- The feature table reshaped per graph: at (g, n, d) the table at row g·2048 + n, column d. -/
theorem x_at (X : S131072x256.Idx → EReal) (k : S64x2048x256.Idx) (g : Fin 64) (n : Fin 2048) (d : Fin 256)
    (h0 : (k 0).val = g.val) (h1 : (k 1).val = n.val) (h2 : (k 2).val = d.val) :
    shapeCast S64x2048x256 X shapeCasts_S131072x256_S64x2048x256 k = X (ix2 (Cert.Spec.node g n) d) :=
  shapeCast_apply X shapeCasts_S131072x256_S64x2048x256 k (ix2 (Cert.Spec.node g n) d) (by
    rewrite [Shape.rowMajor_val_two, Shape.rowMajor_val_three]
    show (g.val * 2048 + n.val) * 256 + d.val = ((k 0).val * 2048 + (k 1).val) * 256 + (k 2).val
    rw [h0, h1, h2])

/-- One channel of the log-probabilities, its unit axis dropped. -/
theorem lp0_at (LP : S16x2048x2.Idx → EReal) (k : S16x2048.Idx) (r : Fin 16) (n : Fin 2048)
    (h0 : (k 0).val = r.val) (h1 : (k 1).val = n.val) :
    shapeCast S16x2048 (extractStridedSlice S16x2048x1 ![0, 0, 0] LP slices_S16x2048x2_S16x2048x1_0_0_0) shapeCasts_S16x2048x1_S16x2048 k
      = LP (ix3 r n 0) := by
  rw [shapeCast_apply _ shapeCasts_S16x2048x1_S16x2048 k (ix3 r n (0 : Fin 1)) (by
    rewrite [Shape.rowMajor_val_three, Shape.rowMajor_val_two]
    show (r.val * 2048 + n.val) * 1 + 0 = (k 0).val * 2048 + (k 1).val
    rw [h0, h1]; omega)]
  exact extractStridedSlice_apply ![0, 0, 0] LP slices_S16x2048x2_S16x2048x1_0_0_0 (ix3 r n (0 : Fin 1)) (ix3 r n (0 : Fin 2)) (fun a => match a with
    | ⟨0, _⟩ => by show r.val = 0 + r.val; omega
    | ⟨1, _⟩ => by show n.val = 0 + n.val; omega
    | ⟨2, _⟩ => by show 0 = 0 + 0; rfl)
theorem lp1_at (LP : S16x2048x2.Idx → EReal) (k : S16x2048.Idx) (r : Fin 16) (n : Fin 2048)
    (h0 : (k 0).val = r.val) (h1 : (k 1).val = n.val) :
    shapeCast S16x2048 (extractStridedSlice S16x2048x1 ![0, 0, 1] LP slices_S16x2048x2_S16x2048x1_0_0_1) shapeCasts_S16x2048x1_S16x2048 k
      = LP (ix3 r n 1) := by
  rw [shapeCast_apply _ shapeCasts_S16x2048x1_S16x2048 k (ix3 r n (0 : Fin 1)) (by
    rewrite [Shape.rowMajor_val_three, Shape.rowMajor_val_two]
    show (r.val * 2048 + n.val) * 1 + 0 = (k 0).val * 2048 + (k 1).val
    rw [h0, h1]; omega)]
  exact extractStridedSlice_apply ![0, 0, 1] LP slices_S16x2048x2_S16x2048x1_0_0_1 (ix3 r n (0 : Fin 1)) (ix3 r n (1 : Fin 2)) (fun a => match a with
    | ⟨0, _⟩ => by show r.val = 0 + r.val; omega
    | ⟨1, _⟩ => by show n.val = 0 + n.val; omega
    | ⟨2, _⟩ => by show 1 = 1 + 0; rfl)

/-! ## The arrays the region finds -/

variable (m : (ℓ : Loc nD τ sig) → Buf (Elt Ideal) ℓ) (c : Dev nD)

theorem V_v8 : (V m c main_v8 : S64x16x2048.Idx → EReal)
    = shapeCast S64x16x2048 (extractStridedSlice S64x16x2048x1 ![0, 0, 0, 0] (m ((c : Thread nD τ).loc main_arg3)) slices_S64x16x2048x2_S64x16x2048x1_0_0_0_0) shapeCasts_S64x16x2048x1_S64x16x2048 := by
  dsimp only [V, V0]
  simp only [List.flatten_cons, List.flatten_nil, List.append_nil]
  rw [Cert.LibAfterAppend.after_append, Host.lay_v8, Host.lsm_arg3]

theorem V_v10 : (V m c main_v10 : S64x16x2048.Idx → EReal)
    = shapeCast S64x16x2048 (extractStridedSlice S64x16x2048x1 ![0, 0, 0, 1] (m ((c : Thread nD τ).loc main_arg3)) slices_S64x16x2048x2_S64x16x2048x1_0_0_0_1) shapeCasts_S64x16x2048x1_S64x16x2048 := by
  dsimp only [V, V0]
  simp only [List.flatten_cons, List.flatten_nil, List.append_nil]
  rw [Cert.LibAfterAppend.after_append, Host.lay_v10, Host.lsm_arg3]

theorem V_v6 : (V m c main_v6 : S64x2048x256.Idx → EReal)
    = shapeCast S64x2048x256 (m ((c : Thread nD τ).loc main_arg0)) shapeCasts_S131072x256_S64x2048x256 := by
  dsimp only [V, V0]
  simp only [List.flatten_cons, List.flatten_nil, List.append_nil]
  rw [Cert.LibAfterAppend.after_append, Host.lay_v6, Host.lsm_arg0]

/-- The log-probabilities: the reference's stage of the mask logits. -/
abbrev LP : S16x2048x2.Idx → EReal := Cert.ReferenceIdeal.ReadP.val_main_v0 (F := Ideal) (m ((c : Thread nD τ).loc main_arg1))

theorem V_v5 : (V m c main_v5 : S16x2048.Idx → EReal)
    = subf (shapeCast S16x2048 (extractStridedSlice S16x2048x1 ![0, 0, 1] (LP m c) slices_S16x2048x2_S16x2048x1_0_0_1) shapeCasts_S16x2048x1_S16x2048 : FVec Ideal S16x2048 .f32)
        (shapeCast S16x2048 (extractStridedSlice S16x2048x1 ![0, 0, 0] (LP m c) slices_S16x2048x2_S16x2048x1_0_0_0) shapeCasts_S16x2048x1_S16x2048 : FVec Ideal S16x2048 .f32) := by
  dsimp only [V, V0]
  simp only [List.flatten_cons, List.flatten_nil, List.append_nil]
  rw [Cert.LibAfterAppend.after_append, Host.lay_v5, Host.lsm_v0]

/-! ## The windows' blocks at a grid point -/

/-- The printed index maps over the grid: every [4, …] window's block index is (t, 0, 0), the whole-array window's (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The graph that row b of point t's blocks belongs to. -/
def gOf (t : Fin cfg0.N) (b : Fin 4) : Fin 64 :=
  ⟨4 * t.val + b.val, by have h := t.isLt; have h16 : cfg0.N = 16 := N_0; have := b.isLt; omega⟩

theorem blk1_at (t : Fin cfg0.N) (b : Fin 4) (r : Fin 16) (n : Fin 2048) :
    (iblk m c 1 t : S4x16x2048.Idx → EReal) (ix3 b r n)
      = (m ((c : Thread nD τ).loc main_arg3) : S64x16x2048x2.Idx → EReal) (ix4 (gOf t b) r n 0) := by
  obtain ⟨-, -, -, e0, e1, e2, -⟩ := idx_facts t
  unfold iblk
  rw [View.read_apply]
  show (V m c main_v8 : S64x16x2048.Idx → EReal) (((cfg0.win 1).blk t).view.emb (ix3 b r n)) = _
  rw [V_v8]
  refine u0_at _ _ (gOf t b) r n ?_ ?_ ?_
  · show win0_1.index t (0 : Fin 3) * 4 + 1 * b.val = 4 * t.val + b.val; rw [e0]; omega
  · show win0_1.index t (1 : Fin 3) * 16 + 1 * r.val = r.val; rw [e1]; omega
  · show win0_1.index t (2 : Fin 3) * 2048 + 1 * n.val = n.val; rw [e2]; omega

theorem blk2_at (t : Fin cfg0.N) (b : Fin 4) (r : Fin 16) (n : Fin 2048) :
    (iblk m c 2 t : S4x16x2048.Idx → EReal) (ix3 b r n)
      = (m ((c : Thread nD τ).loc main_arg3) : S64x16x2048x2.Idx → EReal) (ix4 (gOf t b) r n 1) := by
  obtain ⟨-, -, -, -, -, -, e0, e1, e2, -⟩ := idx_facts t
  unfold iblk
  rw [View.read_apply]
  show (V m c main_v10 : S64x16x2048.Idx → EReal) (((cfg0.win 2).blk t).view.emb (ix3 b r n)) = _
  rw [V_v10]
  refine u1_at _ _ (gOf t b) r n ?_ ?_ ?_
  · show win0_2.index t (0 : Fin 3) * 4 + 1 * b.val = 4 * t.val + b.val; rw [e0]; omega
  · show win0_2.index t (1 : Fin 3) * 16 + 1 * r.val = r.val; rw [e1]; omega
  · show win0_2.index t (2 : Fin 3) * 2048 + 1 * n.val = n.val; rw [e2]; omega

theorem blk0_at (t : Fin cfg0.N) (b : Fin 4) (n : Fin 2048) (d : Fin 256) :
    (iblk m c 0 t : S4x2048x256.Idx → EReal) (ix3 b n d)
      = (m ((c : Thread nD τ).loc main_arg0) : S131072x256.Idx → EReal) (ix2 (Cert.Spec.node (gOf t b) n) d) := by
  obtain ⟨e0, e1, e2, -⟩ := idx_facts t
  unfold iblk
  rw [View.read_apply]
  show (V m c main_v6 : S64x2048x256.Idx → EReal) (((cfg0.win 0).blk t).view.emb (ix3 b n d)) = _
  rw [V_v6]
  refine x_at _ _ (gOf t b) n d ?_ ?_ ?_
  · show win0_0.index t (0 : Fin 3) * 4 + 1 * b.val = 4 * t.val + b.val; rw [e0]; omega
  · show win0_0.index t (1 : Fin 3) * 2048 + 1 * n.val = n.val; rw [e1]; omega
  · show win0_0.index t (2 : Fin 3) * 256 + 1 * d.val = d.val; rw [e2]; omega

theorem blk3_at (t : Fin cfg0.N) (r : Fin 16) (n : Fin 2048) :
    (iblk m c 3 t : S16x2048.Idx → EReal) (ix2 r n) = LP m c (ix3 r n 1) - LP m c (ix3 r n 0) := by
  obtain ⟨-, -, -, -, -, -, -, -, -, e0, e1, -⟩ := idx_facts t
  unfold iblk
  rw [View.read_apply]
  show (V m c main_v5 : S16x2048.Idx → EReal) (((cfg0.win 3).blk t).view.emb (ix2 r n)) = _
  rw [V_v5]
  have k0 : ((((cfg0.win 3).blk t).view.emb (ix2 r n)) 0).val = r.val := by
    show win0_3.index t (0 : Fin 2) * 16 + 1 * r.val = r.val; rw [e0]; omega
  have k1 : ((((cfg0.win 3).blk t).view.emb (ix2 r n)) 1).val = n.val := by
    show win0_3.index t (1 : Fin 2) * 2048 + 1 * n.val = n.val; rw [e1]; omega
  show shapeCast S16x2048 _ _ _ - shapeCast S16x2048 _ _ _ = _
  rw [lp1_at (LP m c) _ r n k0 k1, lp0_at (LP m c) _ r n k0 k1]

end Cert.KernelIdeal.Blocks

end
-- ==== Proof.LibColumns3.lean ====
/-
  A row statistic of a rank-3 array kept as a trailing unit axis. A reduction over the last axis of an [a, b, n] array
  leaves one value per (p, q), an [a, b] array; "keepdims" reshapes it to [a, b, 1], and that is then broadcast back
  over c lanes to [a, b, c]. Read at an index: the reshaped array at (p, q, 0) is the [a, b] array at (p, q); the
  broadcast at (p, q, d) is the [a, b, 1] array at (p, q, 0); and at the ideal values the sum over the last axis of an
  [a, b, n] array at (p, q) is the sum of its n entries there. General facts, for any extents.
-/
import Idealize.ShloMosaic.Lib.Pipeline.Value
import Idealize.ShloMosaic.Lib.ValueIdx
import Idealize.ShloMosaic.PureOps.Ideal.Laws

noncomputable section

namespace Cert.Columns3

open Idealize.ShloMosaic Idealize.ShloMosaic.ValueIdx
open scoped BigOperators

variable {α : Type}

/-- An [a, b] array cast to [a, b, 1] reads, at (i, j, u), the array at (i, j), whatever the unit coordinate u. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast over c lanes reads, at (p, q, d), the array at (p, q, u). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (d : Fin c) (u : Fin 1) :
    broadcastTo ⟨3, ![a, b, c]⟩ v h (ix3 p q d) = v (ix3 p q u) := by
  refine broadcastTo_apply v h (ix3 p q d) (ix3 p q u) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show u.val = if (1 : ℕ) = 1 then 0 else d.val
    rw [if_pos rfl]; omega

/-- At the ideal values the sum over the last axis of an [a, b, n] array, read at (p, q), is the sum of the n entries there. -/
theorem laneSum3_apply {a b n : ℕ} {φ : FTy} (v : FVec Ideal ⟨3, ![a, b, n]⟩ φ) (acc : BitVec φ.bits)
    (h : (⟨3, ![a, b, n]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin n, v (ix3 p q k) :=
  (Ideal.multiReduction_add_single v acc h hφ hacc (ix2 p q)).trans
    (Finset.sum_congr rfl fun k _ => congrArg v (funext fun ax => Fin.ext (by
      match ax with
      | ⟨0, _⟩ => rfl
      | ⟨1, _⟩ => rfl
      | ⟨2, _⟩ => rfl)))

end Cert.Columns3

end
-- ==== Proof.KPay.lean ====
/-
  The kernel body's two stored values read at an index, at the ideal values. The first store is the mask block: at
  (b, r, n) the logistic function of the score difference built from the two draws and the difference of
  log-probabilities the body loaded. The second is the pooled block: at (b, r, d) the sum over the nodes n of
  mask (b, r, n) times feature (b, n, d) — the batched matrix product into a zero accumulator — divided by the mask
  row's sum plus the constant, the row sum kept as a trailing unit axis and repeated over the feature columns.
-/
import proofs.«126894_j51436528337257_2_alg».proof.Proof.Gen.KernelIdeal.Skeleton
import proofs.«126894_j51436528337257_2_alg».proof.Proof.Spec
import proofs.«126894_j51436528337257_2_alg».proof.Proof.LibColumns3
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- A [16, 2048] array given a leading unit axis and repeated over four graphs reads, at (b, r, n), the array at (r, n). -/
theorem rows_at (v6 : Vec Ideal S16x2048 .f32) (b : Fin 4) (r : Fin 16) (n : Fin 2048) :
    broadcastTo S4x16x2048 (shapeCast S1x16x2048 v6 shapeCasts_S16x2048_S1x16x2048) broadcasts_S1x16x2048_S4x16x2048 (ix3 b r n)
      = v6 (ix2 r n) := by
  rw [broadcastTo_apply _ broadcasts_S1x16x2048_S4x16x2048 (ix3 b r n) (ix3 (0 : Fin 1) r n) (fun a => by
    match a with
    | ⟨0, _⟩ => rfl
    | ⟨1, _⟩ => rfl
    | ⟨2, _⟩ => rfl)]
  exact (shapeCast_addUnit_apply ![16, 2048] v6 shapeCasts_S16x2048_S1x16x2048 (ix3 (0 : Fin 1) r n)).trans
    (congrArg v6 (funext fun a => by match a with | ⟨0, _⟩ => rfl | ⟨1, _⟩ => rfl))

/-- The body's mask at (b, r, n): the logistic function of the score difference, from the two draws and the difference of
    log-probabilities it loaded. -/
theorem pay1_at (v2 v4 : Vec Ideal S4x16x2048 .f32) (v6 : Vec Ideal S16x2048 .f32) (b : Fin 4) (r : Fin 16) (n : Fin 2048) :
    k0_pay1 (F := Ideal) v2 v4 v6 (ix3 b r n)
      = Ideal.logistic (((v6 (ix2 r n) : EReal) + (0 - Ideal.log (0 - Ideal.log (v4 (ix3 b r n))))) - (0 - Ideal.log (0 - Ideal.log (v2 (ix3 b r n))))) := by
  unfold k0_pay1
  simp only [shapeCast_self]
  simp only [logistic, subf, addf, log, broadcast]
  rw [rows_at]
  simp only [Ideal.logistic_def, Ideal.subf_def, Ideal.addf_def, Ideal.log_def, Ideal.ofBits_def, Ideal.ofBits_zero_f32]

/-! ## The batched matrix product at an index -/

theorem lhs_0 (i : S4x16x256.Idx) (q : dot_S4x16x2048_S4x2048x256_S4x16x256_2_1_1_2_0_0.contr.Idx) : (dot_S4x16x2048_S4x2048x256_S4x16x256_2_1_1_2_0_0.lhsIdx i q 0).val = (i 0).val := by
  unfold DotDims.lhsIdx
  rw [dif_pos (show (0 : Fin S4x16x2048.rank) ∈ dot_S4x16x2048_S4x2048x256_S4x16x256_2_1_1_2_0_0.lhsBatch by decide)]
  rfl
theorem lhs_1 (i : S4x16x256.Idx) (q : dot_S4x16x2048_S4x2048x256_S4x16x256_2_1_1_2_0_0.contr.Idx) : (dot_S4x16x2048_S4x2048x256_S4x16x256_2_1_1_2_0_0.lhsIdx i q 1).val = (i 1).val := by
  unfold DotDims.lhsIdx
  rw [dif_neg (show ¬(1 : Fin S4x16x2048.rank) ∈ dot_S4x16x2048_S4x2048x256_S4x16x256_2_1_1_2_0_0.lhsBatch by decide), dif_pos (show (1 : Fin S4x16x2048.rank) ∈ dot_S4x16x2048_S4x2048x256_S4x16x256_2_1_1_2_0_0.lhsNonContracting by decide)]
  rfl
theorem lhs_2 (i : S4x16x256.Idx) (q : dot_S4x16x2048_S4x2048x256_S4x16x256_2_1_1_2_0_0.contr.Idx) : (dot_S4x16x2048_S4x2048x256_S4x16x256_2_1_1_2_0_0.lhsIdx i q 2).val = (q ⟨0, by decide⟩).val :=
  dot_S4x16x2048_S4x2048x256_S4x16x256_2_1_1_2_0_0.lhsIdx_val_of_single rfl i q
theorem rhs_0 (i : S4x16x256.Idx) (q : dot_S4x16x2048_S4x2048x256_S4x16x256_2_1_1_2_0_0.contr.Idx) : (dot_S4x16x2048_S4x2048x256_S4x16x256_2_1_1_2_0_0.rhsIdx i q 0).val = (i 0).val := by
  unfold DotDims.rhsIdx
  rw [dif_pos (show (0 : Fin S4x2048x256.rank) ∈ dot_S4x16x2048_S4x2048x256_S4x16x256_2_1_1_2_0_0.rhsBatch by decide)]
  rfl
theorem rhs_1 (i : S4x16x256.Idx) (q : dot_S4x16x2048_S4x2048x256_S4x16x256_2_1_1_2_0_0.contr.Idx) : (dot_S4x16x2048_S4x2048x256_S4x16x256_2_1_1_2_0_0.rhsIdx i q 1).val = (q ⟨0, by decide⟩).val :=
  dot_S4x16x2048_S4x2048x256_S4x16x256_2_1_1_2_0_0.rhsIdx_val_of_single rfl i q
theorem rhs_2 (i : S4x16x256.Idx) (q : dot_S4x16x2048_S4x2048x256_S4x16x256_2_1_1_2_0_0.contr.Idx) : (dot_S4x16x2048_S4x2048x256_S4x16x256_2_1_1_2_0_0.rhsIdx i q 2).val = (i 2).val := by
  unfold DotDims.rhsIdx
  rw [dif_neg (show ¬(2 : Fin S4x2048x256.rank) ∈ dot_S4x16x2048_S4x2048x256_S4x16x256_2_1_1_2_0_0.rhsBatch by decide), dif_pos (show (2 : Fin S4x2048x256.rank) ∈ dot_S4x16x2048_S4x2048x256_S4x16x256_2_1_1_2_0_0.rhsNonContracting by decide)]
  rfl

/-- The batched product of a [4, 16, 2048] and a [4, 2048, 256] block into a zero accumulator, at (b, r, d): the sum over
    the 2048 nodes n of left (b, r, n) times right (b, n, d). -/
theorem mm_at (P : FVec Ideal S4x16x2048 .bf16) (x : FVec Ideal S4x2048x256 .bf16) (b : Fin 4) (r : Fin 16) (d : Fin 256) :
    matmul dot_S4x16x2048_S4x2048x256_S4x16x256_2_1_1_2_0_0 none P x (constant S4x16x256 .f32 0x00000000#32) (ix3 b r d)
      = ∑ n : Fin 2048, P (ix3 b r n) * x (ix3 b n d) := by
  simp only [matmul]
  rw [Ideal.matmul_constant_zero_apply, ← Equiv.sum_comp (ValueIdx.contrEquiv1 dot_S4x16x2048_S4x2048x256_S4x16x256_2_1_1_2_0_0 2048 rfl rfl).symm]
  refine Finset.sum_congr rfl fun k _ => ?_
  have hk := ValueIdx.contrEquiv1_symm_val dot_S4x16x2048_S4x2048x256_S4x16x256_2_1_1_2_0_0 2048 rfl rfl k
  have el : dot_S4x16x2048_S4x2048x256_S4x16x256_2_1_1_2_0_0.lhsIdx (ix3 b r d) ((ValueIdx.contrEquiv1 dot_S4x16x2048_S4x2048x256_S4x16x256_2_1_1_2_0_0 2048 rfl rfl).symm k) = ix3 b r k := funext fun a => Fin.ext (by
    match a with
    | ⟨0, _⟩ => exact lhs_0 _ _
    | ⟨1, _⟩ => exact lhs_1 _ _
    | ⟨2, _⟩ => exact (lhs_2 _ _).trans hk)
  have er : dot_S4x16x2048_S4x2048x256_S4x16x256_2_1_1_2_0_0.rhsIdx (ix3 b r d) ((ValueIdx.contrEquiv1 dot_S4x16x2048_S4x2048x256_S4x16x256_2_1_1_2_0_0 2048 rfl rfl).symm k) = ix3 b k d := funext fun a => Fin.ext (by
    match a with
    | ⟨0, _⟩ => exact rhs_0 _ _
    | ⟨1, _⟩ => exact (rhs_1 _ _).trans hk
    | ⟨2, _⟩ => exact rhs_2 _ _)
  rw [el, er]

/-- The body's pooled value at (b, r, d): the mask-weighted sum of the block's features over the mask row's sum plus
    the constant. -/
theorem pay2_at (v0 : Vec Ideal S4x2048x256 .f32) (v2 v4 : Vec Ideal S4x16x2048 .f32) (v6 : Vec Ideal S16x2048 .f32)
    (b : Fin 4) (r : Fin 16) (d : Fin 256) :
    k0_pay2 (F := Ideal) v0 v2 v4 v6 (ix3 b r d)
      = Ideal.div (∑ n : Fin 2048, (k0_pay1 (F := Ideal) v2 v4 v6 (ix3 b r n) : EReal) * v0 (ix3 b n d))
          ((∑ n : Fin 2048, (k0_pay1 (F := Ideal) v2 v4 v6 (ix3 b r n) : EReal)) + Cert.Spec.eps) := by
  unfold k0_pay2
  simp only [shapeCast_self]
  generalize k0_pay1 (F := Ideal) v2 v4 v6 = P
  simp only [divf]
  rw [mm_at, Cert.Columns3.broadcastTo_ab1_abc_apply _ broadcasts_S4x16x1_S4x16x256 b r d 0]
  simp only [addf, broadcast]
  rw [Cert.Columns3.shapeCast_ab_ab1_apply]
  exact congrArg₂ Ideal.div (Finset.sum_congr rfl fun n _ => rfl)
    (congrArg (fun s : EReal => s + Cert.Spec.eps)
      (Cert.Columns3.laneSum3_apply P 0x00000000#32 reduces_S4x16x2048_S4x16 (.inl rfl) rfl b r))

end Cert.KernelIdeal.Pay

end
-- ==== Proof.RefAt.lean ====
/-
  THE REFERENCE READ AT AN INDEX. The reference computes, for a graph g, a hyper-node r and a node n, the two scores
  z_c = a_c + gum u_c (a_c the log-probability at (r, n, c), u_c the draw at (g, r, n, c), gum u = −log(−log u)), their
  maximum M = max z₀ z₁ (a reduction by maximum over the two channels from −∞, then a maximum with −∞), the
  exponentials exp(z_c − M), their sum, and the quotient at channel 1: the soft mask. The pooled feature of (g, r) at a
  column d is the sum over the graph's nodes of mask times feature, divided by the mask row's sum plus a constant, read
  through two reshapes: row g·16 + r of the [1024, 256] result is (g, r), and row g·2048 + n of the flat feature
  table is node n of graph g.
-/
import proofs.«126894_j51436528337257_2_alg».proof.Proof.RefRead
import proofs.«126894_j51436528337257_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

open scoped BigOperators

namespace Cert.RefAt

open Cert.ReferenceIdeal Cert.ReferenceIdeal.ReadP Idealize.ShloMosaic Idealize.ShloMosaic.ValueIdx

variable (X : (⟨S131072x256, .f32⟩ : BufTy).Contents (Elt Ideal)) (L : (⟨S16x2048x2, .f32⟩ : BufTy).Contents (Elt Ideal))
  (U : (⟨S64x16x2048x2, .f32⟩ : BufTy).Contents (Elt Ideal))

/-- The f32 pattern with the sign bit and all exponent bits set and no fraction bit is minus infinity. -/
theorem ofBits_neg_inf_f32 : Ideal.ofBits .f32 0xFF800000#32 = ⊥ := by simp [Ideal.ofBits, Ideal.ieee]

/-- The score of channel c at (g, r, n): the log-probability at (r, n, c) plus the Gumbel noise of the draw. -/
theorem score_at (g : Fin 64) (r : Fin 16) (n : Fin 2048) (c : Fin 2) :
    val_main_v7 (F := Ideal) L U (ix4 g r n c) = val_main_v0 (F := Ideal) L (ix3 r n c) + Cert.Spec.gum (U (ix4 g r n c)) := by
  have e : idx_main_v1 (idx_main_v6 (ix4 g r n c)) = ix3 r n c :=
    funext fun a => by match a with | ⟨0, _⟩ => rfl | ⟨1, _⟩ => rfl | ⟨2, _⟩ => rfl
  rw [val_main_v7_apply, val_main_v6_apply, val_main_v1_apply, e, val_main_v5_apply, val_main_v4_apply, val_main_v3_apply,
    val_main_v2_apply]
  simp only [Ideal.addf_def, Ideal.hostNegf_def, Ideal.negf_def, Ideal.hostUnary_log_def]
  rfl

/-- The index (g, r, n) of the reduced array with channel k put back on the dropped last axis is (g, r, n, k). -/
theorem lift_ix4 (h : S64x16x2048x2.Reduces [3] S64x16x2048) (g : Fin 64) (r : Fin 16) (n : Fin 2048)
    (k : Fin (S64x16x2048x2.size 3)) : h.lift (ix3 g r n) k = ix4 g r n (⟨k.val, k.isLt⟩ : Fin 2) := by
  funext c; apply Fin.ext
  fin_cases c <;> rfl

/-- A fold of a commutative, associative operation over the two channels from b combines both values with b. -/
theorem fold_univ_fin2 {α : Type} (op : α → α → α) [Std.Commutative op] [Std.Associative op] (b : α) (f : Fin 2 → α) :
    (Finset.univ : Finset (Fin 2)).fold op b f = op (f 0) (op (f 1) b) := by
  rw [show (Finset.univ : Finset (Fin 2)) = insert 0 {1} from by decide, Finset.fold_insert (by decide), Finset.fold_singleton]

/-- From minus infinity, a reduction by maximum over the last axis (the two channels) is, at (g, r, n), the larger of
    the two values there. -/
theorem hostReduce_max_two (y : FVec Ideal S64x16x2048x2 .f32) (h' : S64x16x2048x2.ReducesTo [3] S64x16x2048)
    (hu : 0 < S_.numel) (g : Fin 64) (r : Fin 16) (n : Fin 2048) :
    Host.reduce FloatOps.maximumf y (constant S_ .f32 0xFF800000#32) h' hu (ix3 g r n)
      = max (y (ix4 g r n 0)) (y (ix4 g r n 1)) := by
  have h : S64x16x2048x2.Reduces [3] S64x16x2048 := by decide
  rw [Host.reduce_eq_fold_single FloatOps.maximumf y _ h' h hu]
  have hf : (y ∘ h.lift (ix3 g r n)) = fun k : Fin 2 => y (ix4 g r n k) := funext fun k => congrArg y (lift_ix4 h g r n k)
  have e := fold_univ_fin2 (max : Ideal .f32 → Ideal .f32 → Ideal .f32) (Ideal.ofBits .f32 0xFF800000#32) (fun k : Fin 2 => y (ix4 g r n k))
  have hb : ∀ z : Ideal .f32, max z (Ideal.ofBits .f32 0xFF800000#32) = z := fun z => by
    rw [ofBits_neg_inf_f32]; exact max_bot_right z
  rw [hb] at e
  refine Eq.trans ?_ e
  exact congrArg (fun f => Finset.fold max (Ideal.ofBits .f32 0xFF800000#32) f (Finset.univ : Finset (Fin 2))) hf

/-- The maximum over the two channels of the scores at (g, r, n) is the larger of the two. -/
theorem max_at (g : Fin 64) (r : Fin 16) (n : Fin 2048) :
    val_main_v8 (F := Ideal) L U (ix3 g r n)
      = max (val_main_v7 (F := Ideal) L U (ix4 g r n 0)) (val_main_v7 (F := Ideal) L U (ix4 g r n 1)) := by
  unfold val_main_v8
  exact hostReduce_max_two _ _ _ g r n

/-- The shift the softmax subtracts at (g, r, n, c): the larger of the two scores at (g, r, n). -/
theorem shift_at (g : Fin 64) (r : Fin 16) (n : Fin 2048) (c : Fin 2) :
    val_main_v12 (F := Ideal) L U (ix4 g r n c)
      = max (val_main_v7 (F := Ideal) L U (ix4 g r n 0)) (val_main_v7 (F := Ideal) L U (ix4 g r n 1)) := by
  have e : idx_main_v11 (idx_main_v12 (ix4 g r n c)) = ix3 g r n :=
    funext fun a => by match a with | ⟨0, _⟩ => rfl | ⟨1, _⟩ => rfl | ⟨2, _⟩ => rfl
  rw [val_main_v12_apply, val_main_v11_apply, e, val_main_v10_apply, val_main_v9_apply, val_main_cst_0_apply, max_at]
  simp only [Ideal.maximumf_def, Ideal.ofBits_def, ofBits_neg_inf_f32]
  exact max_bot_left _

/-- The exponential of the shifted score of channel c at (g, r, n). -/
theorem exp_at (g : Fin 64) (r : Fin 16) (n : Fin 2048) (c : Fin 2) :
    val_main_v14 (F := Ideal) L U (ix4 g r n c)
      = Ideal.exp (val_main_v7 (F := Ideal) L U (ix4 g r n c)
          - max (val_main_v7 (F := Ideal) L U (ix4 g r n 0)) (val_main_v7 (F := Ideal) L U (ix4 g r n 1))) := by
  rw [val_main_v14_apply, val_main_v13_apply, shift_at]
  simp only [Ideal.subf_def, Ideal.hostUnary_exp_def]

/-- The softmax's normalizer at (g, r, n, c): the sum of the two exponentials at (g, r, n). -/
theorem norm_at (g : Fin 64) (r : Fin 16) (n : Fin 2048) (c : Fin 2) :
    val_main_v17 (F := Ideal) L U (ix4 g r n c)
      = val_main_v14 (F := Ideal) L U (ix4 g r n 0) + val_main_v14 (F := Ideal) L U (ix4 g r n 1) := by
  have e : idx_main_v16 (idx_main_v17 (ix4 g r n c)) = ix3 g r n :=
    funext fun a => by match a with | ⟨0, _⟩ => rfl | ⟨1, _⟩ => rfl | ⟨2, _⟩ => rfl
  have ek : ∀ k : Fin 2, idx_main_v15 (ix3 g r n) k = ix4 g r n k := fun k =>
    funext fun a => by match a with | ⟨0, _⟩ => rfl | ⟨1, _⟩ => rfl | ⟨2, _⟩ => rfl | ⟨3, _⟩ => rfl
  rw [val_main_v17_apply, val_main_v16_apply, e, val_main_v15_apply, val_main_cst_1_apply, Fin.sum_univ_two, ek, ek]
  simp only [Ideal.ofBits_def, Ideal.ofBits_zero_f32, zero_add]

/-- The reference's masks at (g, r, n): channel 1 of the softmax of the two scores, the soft mask of the
    log-probabilities at (r, n) and the draws at (g, r, n). -/
theorem masks_at (g : Fin 64) (r : Fin 16) (n : Fin 2048) :
    val_main_v20 (F := Ideal) L U (ix3 g r n) = Cert.Spec.masks (val_main_v0 (F := Ideal) L) U g r n := by
  have e : idx_main_v19 (idx_main_v20 (ix3 g r n)) = ix4 g r n 1 :=
    funext fun a => Fin.ext (by
      have hg := g.isLt; have hr := r.isLt; have hn := n.isLt
      match a with
      | ⟨0, _⟩ => show ((g.val * 16 + r.val) * 2048 + n.val) / 32768 = g.val; omega
      | ⟨1, _⟩ => show ((g.val * 16 + r.val) * 2048 + n.val) / 2048 % 16 = r.val; omega
      | ⟨2, _⟩ => show ((g.val * 16 + r.val) * 2048 + n.val) / 1 % 2048 = n.val; omega
      | ⟨3, _⟩ => rfl)
  rw [val_main_v20_apply, val_main_v19_apply, e, val_main_v18_apply, norm_at, exp_at, exp_at, score_at, score_at]
  simp only [Ideal.hostDivf_def]
  rfl

/-- Row q = g·16 + r and column d of the [1024, 256] result is (g, r, d) of the [64, 16, 256] array it reshapes. -/
theorem row_idx (g : Fin 64) (r : Fin 16) (d : Fin 256) (q : Fin 1024) (hq : q.val = g.val * 16 + r.val) :
    idx_main_v29 (ix2 q d) = ix3 g r d :=
  funext fun a => Fin.ext (by
    have hg := g.isLt; have hr := r.isLt; have hd := d.isLt
    match a with
    | ⟨0, _⟩ => show (q.val * 256 + d.val) / 4096 = g.val; omega
    | ⟨1, _⟩ => show (q.val * 256 + d.val) / 256 % 16 = r.val; omega
    | ⟨2, _⟩ => show (q.val * 256 + d.val) % 256 = d.val; omega)

/-- (g, n, d) of the [64, 2048, 256] reshape of the feature table is row g·2048 + n, column d of the table. -/
theorem node_idx (g : Fin 64) (r : Fin 16) (d : Fin 256) (k : Fin 2048) :
    idx_main_v21 (ridx_main_v22 (ix3 g r d) k) = ix2 (Cert.Spec.node g k) d :=
  funext fun a => Fin.ext (by
    have hg := g.isLt; have hk := k.isLt; have hd := d.isLt
    match a with
    | ⟨0, _⟩ => show ((g.val * 2048 + k.val) * 256 + d.val) / 256 = g.val * 2048 + k.val; omega
    | ⟨1, _⟩ => show ((g.val * 2048 + k.val) * 256 + d.val) % 256 = d.val; omega)

/-- The reference's pooled feature at row g·16 + r, column d: the mask-weighted sum of the graph's node features
    over the mask row's sum plus the constant. -/
theorem pooled_at (g : Fin 64) (r : Fin 16) (d : Fin 256) :
    val_main_v29 (F := Ideal) X L U (ix2 (⟨g.val * 16 + r.val, by have := g.isLt; have := r.isLt; omega⟩ : Fin 1024) d)
      = Cert.Spec.pooled X (fun g r n => val_main_v20 (F := Ideal) L U (ix3 g r n)) g r d := by
  have e24 : idx_main_v24 (idx_main_v27 (ix3 g r d)) = ix2 g r :=
    funext fun a => by match a with | ⟨0, _⟩ => rfl | ⟨1, _⟩ => rfl
  have el : ∀ k : Fin 2048, lidx_main_v22 (ix3 g r d) k = ix3 g r k := fun k =>
    funext fun a => by match a with | ⟨0, _⟩ => rfl | ⟨1, _⟩ => rfl | ⟨2, _⟩ => rfl
  have e23 : ∀ k : Fin 2048, idx_main_v23 (ix2 g r) k = ix3 g r k := fun k =>
    funext fun a => by match a with | ⟨0, _⟩ => rfl | ⟨1, _⟩ => rfl | ⟨2, _⟩ => rfl
  rw [val_main_v29_apply, row_idx g r d _ rfl, val_main_v28_apply, val_main_v22_apply, val_main_v27_apply, val_main_v26_apply,
    val_main_v24_apply, e24, val_main_v23_apply, val_main_cst_2_apply, val_main_v25_apply, val_main_cst_3_apply]
  simp only [el, e23, val_main_v21_apply, node_idx, Ideal.hostDivf_def, Ideal.addf_def, Ideal.ofBits_def, Ideal.ofBits_zero_f32,
    zero_add]
  rfl

/-- The broadcast logits at (g, r, n): channel 1 of the mask logits at (r, n). -/
theorem logits_at (g : Fin 64) (r : Fin 16) (n : Fin 2048) :
    val_main_v33 (F := Ideal) L (ix3 g r n) = L (ix3 r n 1) := by
  have e : idx_main_v30 (idx_main_v31 (idx_main_v32 (idx_main_v33 (ix3 g r n)))) = ix3 r n 1 :=
    funext fun a => Fin.ext (by
      have hr := r.isLt; have hn := n.isLt
      match a with
      | ⟨0, _⟩ => show (r.val * 2048 + n.val) / 2048 = r.val; omega
      | ⟨1, _⟩ => show (r.val * 2048 + n.val) / 1 % 2048 = n.val; omega
      | ⟨2, _⟩ => rfl)
  rw [val_main_v33_apply, val_main_v32_apply, val_main_v31_apply, val_main_v30_apply, e]

end Cert.RefAt

end
-- ==== Proof.MaskLaw.lean ====
/-
  THE SCALAR LAW. For real log-probabilities a₀, a₁ and draws u₀, u₁ strictly between 0 and 1: log u is negative, so
  −log u is positive and the Gumbel noise γ = −log(−log u) is a real number. With the real scores z_c = a_c + γ_c and
  M = max z₀ z₁, channel 1 of the shifted softmax is exp(z₁ − M) / (exp(z₀ − M) + exp(z₁ − M)); since
  exp(z₀ − M) = exp(z₁ − M) · exp(−(z₁ − z₀)), this is 1 / (1 + exp(−(z₁ − z₀))), the logistic function of
  z₁ − z₀ = ((a₁ − a₀) + γ₁) − γ₀.
-/
import proofs.«126894_j51436528337257_2_alg».proof.Proof.Spec

noncomputable section

namespace Cert.MaskLaw

open Idealize.ShloMosaic

/-- The larger of two real numbers, as an extended real, is the larger of the two as extended reals. -/
theorem coe_max (x y : ℝ) : max (x : EReal) (y : EReal) = ((max x y : ℝ) : EReal) :=
  (EReal.coe_strictMono.monotone.map_max).symm

/-- For 0 < u < 1 the Gumbel noise −log(−log u) is the real number −log(−log u). -/
theorem gum_coe (u : ℝ) (h0 : 0 < u) (h1 : u < 1) :
    Cert.Spec.gum (u : EReal) = ((-(Real.log (-(Real.log u))) : ℝ) : EReal) := by
  have hl : ¬ (-(Real.log u)) ≤ 0 := by have := Real.log_neg h0 h1; linarith
  unfold Cert.Spec.gum
  rw [Ideal.log_coe, if_neg (not_le.2 h0), ← EReal.coe_neg, Ideal.log_coe, if_neg hl, ← EReal.coe_neg]

/-- The same noise in the form 0 − log(0 − log u). -/
theorem gum_zero_sub_coe (u : ℝ) (h0 : 0 < u) (h1 : u < 1) :
    (0 : EReal) - Ideal.log ((0 : EReal) - Ideal.log (u : EReal)) = ((-(Real.log (-(Real.log u))) : ℝ) : EReal) := by
  have hl : ¬ (-(Real.log u)) ≤ 0 := by have := Real.log_neg h0 h1; linarith
  rw [Ideal.log_coe, if_neg (not_le.2 h0), ← EReal.coe_zero, ← EReal.coe_sub, zero_sub, Ideal.log_coe, if_neg hl,
    ← EReal.coe_sub, zero_sub]

/-- The real identity: channel 1 of the shifted softmax of two scores is the logistic function of their difference. -/
theorem softmax_two (z0 z1 M t : ℝ) (ht : t = z1 - z0) :
    Real.exp (z1 - M) * (1 / (Real.exp (z0 - M) + Real.exp (z1 - M))) = (1 + Real.exp (-t))⁻¹ := by
  have hE0 : Real.exp (z0 - M) = Real.exp (z1 - M) * Real.exp (-t) := by
    rw [← Real.exp_add]; congr 1; rw [ht]; ring
  have h1 := Real.exp_pos (z1 - M)
  have h2 := Real.exp_pos (-t)
  rw [hE0]
  field_simp
  ring

/-- For real log-probabilities and draws strictly between 0 and 1, the soft mask (channel 1 of the softmax of the
    two scores) is the logistic function of the difference of the scores. -/
theorem mask_law (a0 a1 u0 u1 : ℝ) (h0 : 0 < u0) (h0' : u0 < 1) (h1 : 0 < u1) (h1' : u1 < 1) :
    Cert.Spec.softmask (a0 : EReal) (a1 : EReal) (u0 : EReal) (u1 : EReal)
      = Cert.Spec.sigmask (a0 : EReal) (a1 : EReal) (u0 : EReal) (u1 : EReal) := by
  have hpos : Real.exp (a0 + -(Real.log (-(Real.log u0))) - max (a0 + -(Real.log (-(Real.log u0)))) (a1 + -(Real.log (-(Real.log u1)))))
      + Real.exp (a1 + -(Real.log (-(Real.log u1))) - max (a0 + -(Real.log (-(Real.log u0)))) (a1 + -(Real.log (-(Real.log u1))))) ≠ 0 :=
    (add_pos (Real.exp_pos _) (Real.exp_pos _)).ne'
  unfold Cert.Spec.softmask Cert.Spec.sigmask
  rw [gum_coe u0 h0 h0', gum_coe u1 h1 h1', gum_zero_sub_coe u0 h0 h0', gum_zero_sub_coe u1 h1 h1']
  rw [← EReal.coe_add, ← EReal.coe_add, coe_max, ← EReal.coe_sub, ← EReal.coe_sub, Ideal.exp_coe, Ideal.exp_coe, ← EReal.coe_add,
    Ideal.div_coe hpos, ← EReal.coe_mul]
  rw [← EReal.coe_sub, ← EReal.coe_add, ← EReal.coe_sub, Ideal.logistic_coe, EReal.coe_eq_coe_iff]
  exact softmax_two _ _ _ _ (by ring)

end Cert.MaskLaw

end
-- ==== Proof.LogpReal.lean ====
/-
  THE LOG-PROBABILITIES ARE REAL, AND THE MASK AS A LOGISTIC FUNCTION. The log-softmax of the two logits l₀, l₁ at (r, n)
  is (l_c − m) − log(exp(l₀ − m) + exp(l₁ − m)) with m = max l₀ l₁ (a reduction by maximum over the two channels from
  −∞, then a maximum with −∞). For real logits m is real, the exponentials are positive reals, their sum is a positive
  real, its logarithm is real, and so is the difference. With real log-probabilities and draws strictly between 0 and
  1 the scalar law applies: the reference's mask is the logistic function of the difference of the two scores.
-/
import proofs.«126894_j51436528337257_2_alg».proof.Proof.RefAt
import proofs.«126894_j51436528337257_2_alg».proof.Proof.MaskLaw

noncomputable section

open scoped BigOperators

namespace Cert.LogpReal

open Cert.ReferenceIdeal Cert.ReferenceIdeal.ReadP Idealize.ShloMosaic Idealize.ShloMosaic.ValueIdx

variable (L : (⟨S16x2048x2, .f32⟩ : BufTy).Contents (Elt Ideal))

/-- The index (r, n) of the reduced array with channel k put back on the dropped last axis is (r, n, k). -/
theorem lift_ix3 (h : S16x2048x2.Reduces [2] S16x2048) (r : Fin 16) (n : Fin 2048) (k : Fin (S16x2048x2.size 2)) :
    h.lift (ix2 r n) k = ix3 r n (⟨k.val, k.isLt⟩ : Fin 2) := by
  funext c; apply Fin.ext
  fin_cases c <;> rfl

/-- From minus infinity, a reduction by maximum over the last axis (the two channels) is, at (r, n), the larger of the
    two values there. -/
theorem hostReduce_max_two (y : FVec Ideal S16x2048x2 .f32) (h' : S16x2048x2.ReducesTo [2] S16x2048)
    (hu : 0 < S_.numel) (r : Fin 16) (n : Fin 2048) :
    Host.reduce FloatOps.maximumf y (constant S_ .f32 0xFF800000#32) h' hu (ix2 r n)
      = max (y (ix3 r n 0)) (y (ix3 r n 1)) := by
  have h : S16x2048x2.Reduces [2] S16x2048 := by decide
  rw [Host.reduce_eq_fold_single FloatOps.maximumf y _ h' h hu]
  have hf : (y ∘ h.lift (ix2 r n)) = fun k : Fin 2 => y (ix3 r n k) := funext fun k => congrArg y (lift_ix3 h r n k)
  have e := Cert.RefAt.fold_univ_fin2 (max : Ideal .f32 → Ideal .f32 → Ideal .f32) (Ideal.ofBits .f32 0xFF800000#32)
    (fun k : Fin 2 => y (ix3 r n k))
  have hb : ∀ z : Ideal .f32, max z (Ideal.ofBits .f32 0xFF800000#32) = z := fun z => by
    rw [Cert.RefAt.ofBits_neg_inf_f32]; exact max_bot_right z
  rw [hb] at e
  refine Eq.trans ?_ e
  exact congrArg (fun f => Finset.fold max (Ideal.ofBits .f32 0xFF800000#32) f (Finset.univ : Finset (Fin 2))) hf

/-- The shift the log-softmax subtracts at (r, n, c): the larger of the two logits at (r, n). -/
theorem shift_at (r : Fin 16) (n : Fin 2048) (c : Fin 2) :
    val_main_call0_v4 (F := Ideal) L (ix3 r n c) = max (L (ix3 r n 0)) (L (ix3 r n 1)) := by
  have e : idx_main_call0_v3 (idx_main_call0_v4 (ix3 r n c)) = ix2 r n :=
    funext fun a => by match a with | ⟨0, _⟩ => rfl | ⟨1, _⟩ => rfl
  have hm : val_main_call0_v0 (F := Ideal) L (ix2 r n) = max (L (ix3 r n 0)) (L (ix3 r n 1)) := by
    unfold val_main_call0_v0
    exact hostReduce_max_two _ _ _ r n
  rw [val_main_call0_v4_apply, val_main_call0_v3_apply, e, val_main_call0_v2_apply, val_main_call0_v1_apply,
    val_main_call0_cst_0_apply, hm]
  simp only [Ideal.maximumf_def, Ideal.ofBits_def, Cert.RefAt.ofBits_neg_inf_f32]
  exact max_bot_left _

/-- The shifted logit of channel c at (r, n). -/
theorem shifted_at (r : Fin 16) (n : Fin 2048) (c : Fin 2) :
    val_main_call0_v5 (F := Ideal) L (ix3 r n c) = L (ix3 r n c) - max (L (ix3 r n 0)) (L (ix3 r n 1)) := by
  rw [val_main_call0_v5_apply, shift_at]
  simp only [Ideal.subf_def]

/-- The logarithm of the normalizer at (r, n, c): of the sum of the two exponentials of the shifted logits at (r, n). -/
theorem lognorm_at (r : Fin 16) (n : Fin 2048) (c : Fin 2) :
    val_main_call0_v10 (F := Ideal) L (ix3 r n c)
      = Ideal.log (Ideal.exp (L (ix3 r n 0) - max (L (ix3 r n 0)) (L (ix3 r n 1)))
          + Ideal.exp (L (ix3 r n 1) - max (L (ix3 r n 0)) (L (ix3 r n 1)))) := by
  have e : idx_main_call0_v8 (idx_main_call0_v10 (ix3 r n c)) = ix2 r n :=
    funext fun a => by match a with | ⟨0, _⟩ => rfl | ⟨1, _⟩ => rfl
  have ek : ∀ k : Fin 2, idx_main_call0_v7 (ix2 r n) k = ix3 r n k := fun k =>
    funext fun a => by match a with | ⟨0, _⟩ => rfl | ⟨1, _⟩ => rfl | ⟨2, _⟩ => rfl
  rw [val_main_call0_v10_apply, val_main_call0_v9_apply, val_main_call0_v8_apply, e, val_main_call0_v7_apply,
    val_main_call0_cst_1_apply, Fin.sum_univ_two, ek, ek, val_main_call0_v6_apply, val_main_call0_v6_apply, shifted_at, shifted_at]
  simp only [Ideal.ofBits_def, Ideal.ofBits_zero_f32, zero_add, Ideal.hostUnary_exp_def, Ideal.hostUnary_log_def]

/-- The log-softmax at (r, n, c), for any logits: the shifted logit minus the logarithm of the normalizer. -/
theorem logp_at (r : Fin 16) (n : Fin 2048) (c : Fin 2) :
    val_main_v0 (F := Ideal) L (ix3 r n c)
      = (L (ix3 r n c) - max (L (ix3 r n 0)) (L (ix3 r n 1)))
        - Ideal.log (Ideal.exp (L (ix3 r n 0) - max (L (ix3 r n 0)) (L (ix3 r n 1)))
            + Ideal.exp (L (ix3 r n 1) - max (L (ix3 r n 0)) (L (ix3 r n 1)))) := by
  rw [val_main_v0_apply, shifted_at, lognorm_at]
  simp only [Ideal.subf_def]

/-- The log-softmax of real logits is real. -/
theorem logp_real (hL : ∀ i, ∃ r : ℝ, L i = (r : EReal)) (r : Fin 16) (n : Fin 2048) (c : Fin 2) :
    ∃ a : ℝ, val_main_v0 (F := Ideal) L (ix3 r n c) = (a : EReal) := by
  obtain ⟨l0, h0⟩ := hL (ix3 r n 0)
  obtain ⟨l1, h1⟩ := hL (ix3 r n 1)
  obtain ⟨lc, hc⟩ := hL (ix3 r n c)
  have hS : ¬ (Real.exp (l0 - max l0 l1) + Real.exp (l1 - max l0 l1)) ≤ 0 :=
    not_le.2 (add_pos (Real.exp_pos _) (Real.exp_pos _))
  refine ⟨(lc - max l0 l1) - Real.log (Real.exp (l0 - max l0 l1) + Real.exp (l1 - max l0 l1)), ?_⟩
  rw [logp_at, h0, h1, hc, Cert.MaskLaw.coe_max, ← EReal.coe_sub, ← EReal.coe_sub, ← EReal.coe_sub, Ideal.exp_coe, Ideal.exp_coe,
    ← EReal.coe_add, Ideal.log_coe, if_neg hS, ← EReal.coe_sub]

/-- For real logits and draws strictly between 0 and 1, the reference's mask at (g, r, n) is the logistic function
    of the difference of the two scores. -/
theorem masks_eq_sig (U : (⟨S64x16x2048x2, .f32⟩ : BufTy).Contents (Elt Ideal)) (hL : ∀ i, ∃ r : ℝ, L i = (r : EReal))
    (hU : ∀ i, ∃ r : ℝ, U i = (r : EReal) ∧ 0 < r ∧ r < 1) (g : Fin 64) (r : Fin 16) (n : Fin 2048) :
    Cert.Spec.masks (val_main_v0 (F := Ideal) L) U g r n
      = Cert.Spec.sigmask (val_main_v0 (F := Ideal) L (ix3 r n 0)) (val_main_v0 (F := Ideal) L (ix3 r n 1))
          (U (ix4 g r n 0)) (U (ix4 g r n 1)) := by
  obtain ⟨a0, ha0⟩ := logp_real L hL r n 0
  obtain ⟨a1, ha1⟩ := logp_real L hL r n 1
  obtain ⟨u0, hu0, p0, q0⟩ := hU (ix4 g r n 0)
  obtain ⟨u1, hu1, p1, q1⟩ := hU (ix4 g r n 1)
  unfold Cert.Spec.masks
  rw [ha0, ha1, hu0, hu1]
  exact Cert.MaskLaw.mask_law a0 a1 u0 u1 p0 q0 p1 q1

end Cert.LogpReal

end
-- ==== Proof.KValue.lean ====
/-
  What the kernel's two output arrays hold after the run. Point t writes back, into rows 4t … 4t + 3 of the mask
  array, the body's mask block, and that block is the reference's mask array read there: by the scalar law the logistic
  form of a mask is the softmax form, given real log-probabilities and draws strictly between 0 and 1. Likewise the
  pooled block is the reference's pooled array (before its final reshape) read at rows 4t … 4t + 3: the same sums of the
  same masks and features. The sixteen points' blocks tile both arrays, so each array ends equal to the reference's.
-/
import proofs.«126894_j51436528337257_2_alg».proof.Proof.KBlocks
import proofs.«126894_j51436528337257_2_alg».proof.Proof.KPay
import proofs.«126894_j51436528337257_2_alg».proof.Proof.LogpReal

set_option maxRecDepth 16384

noncomputable section

open scoped BigOperators

namespace Cert.KernelIdeal.Val

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

theorem hz3 : (![0, 0, 0] : Fin 3 → Nat) = fun _ => 0 := funext fun a => by fin_cases a <;> rfl
theorem hz2 : (![0, 0] : Fin 2 → Nat) = fun _ => 0 := funext fun a => by fin_cases a <;> rfl

/-- The reference's pooled array before its final reshape, at (g, r, d): the pooled feature over its own masks. -/
theorem v28_at (X : (⟨Cert.ReferenceIdeal.S131072x256, .f32⟩ : BufTy).Contents (Elt Ideal)) (L : (⟨Cert.ReferenceIdeal.S16x2048x2, .f32⟩ : BufTy).Contents (Elt Ideal))
    (U : (⟨Cert.ReferenceIdeal.S64x16x2048x2, .f32⟩ : BufTy).Contents (Elt Ideal)) (g : Fin 64) (r : Fin 16) (d : Fin 256) :
    Cert.ReferenceIdeal.ReadP.val_main_v28 (F := Ideal) X L U (ix3 g r d)
      = Cert.Spec.pooled X (fun g r n => Cert.ReferenceIdeal.ReadP.val_main_v20 (F := Ideal) L U (ix3 g r n)) g r d := by
  rw [← Cert.RefAt.pooled_at X L U g r d, Cert.ReferenceIdeal.ReadP.val_main_v29_apply, Cert.RefAt.row_idx g r d _ rfl]

variable (hL : ∀ i, ∃ r : ℝ, (m ((c : Thread nD τ).loc main_arg1) : S16x2048x2.Idx → EReal) i = (r : EReal))
  (hU : ∀ i, ∃ r : ℝ, (m ((c : Thread nD τ).loc main_arg3) : S64x16x2048x2.Idx → EReal) i = (r : EReal) ∧ 0 < r ∧ r < 1)
include hL hU

/-- The body's mask at (b, r, n) of point t is the reference's mask at graph 4t + b. -/
theorem mask_blk (t : Fin cfg0.N) (b : Fin 4) (r : Fin 16) (n : Fin 2048) :
    k0_pay1 (F := Ideal) (iblk m c 1 t) (iblk m c 2 t) (iblk m c 3 t) (ix3 b r n)
      = Cert.ReferenceIdeal.ReadP.val_main_v20 (F := Ideal) (m ((c : Thread nD τ).loc main_arg1)) (m ((c : Thread nD τ).loc main_arg3)) (ix3 (gOf t b) r n) := by
  rw [Pay.pay1_at, blk1_at, blk2_at, blk3_at]
  refine Eq.trans ?_ ((Cert.RefAt.masks_at _ _ (gOf t b) r n).trans (Cert.LogpReal.masks_eq_sig _ _ hL hU (gOf t b) r n)).symm
  rfl

/-- The body's pooled value at (b, r, d) of point t is the reference's at graph 4t + b. -/
theorem pool_blk (t : Fin cfg0.N) (b : Fin 4) (r : Fin 16) (d : Fin 256) :
    k0_pay2 (F := Ideal) (iblk m c 0 t) (iblk m c 1 t) (iblk m c 2 t) (iblk m c 3 t) (ix3 b r d)
      = Cert.ReferenceIdeal.ReadP.val_main_v28 (F := Ideal) (m ((c : Thread nD τ).loc main_arg0)) (m ((c : Thread nD τ).loc main_arg1)) (m ((c : Thread nD τ).loc main_arg3)) (ix3 (gOf t b) r d) := by
  rw [Pay.pay2_at]
  refine Eq.trans ?_ (v28_at _ _ _ (gOf t b) r d).symm
  unfold Cert.Spec.pooled
  exact congrArg₂ Ideal.div
    (Finset.sum_congr rfl fun n _ => by rw [mask_blk m c hL hU t b r n, blk0_at])
    (congrArg (fun s : EReal => s + Cert.Spec.eps) (Finset.sum_congr rfl fun n _ => mask_blk m c hL hU t b r n))

/-! ## Blocks to arrays -/

/-- Point t writes back, into the mask array, the reference's mask array read through its block. -/
theorem flushed4_eq (t : Fin cfg0.N) :
    (dats m 0 c).flushed 4 t = ((cfg0.win 4).blk t).view.read (Elt Ideal) (Cert.ReferenceIdeal.ReadP.val_main_v20 (F := Ideal) (m ((c : Thread nD τ).loc main_arg1)) (m ((c : Thread nD τ).loc main_arg3))) := by
  show (cfg0.win 4).cut (grid0.coords t) ((dats m 0 c).after 4 t) = _
  rw [after0_4]
  unfold out0_4
  rw [View.canon_unit_zero hz3]
  simp only [View.ld_unit_zero (S := S4x16x2048) hz3, View.ld_unit_zero (S := S16x2048) hz2]
  funext j
  obtain ⟨b, r, n, rfl⟩ : ∃ (b : Fin 4) (r : Fin 16) (n : Fin 2048), j = ix3 b r n := ⟨j 0, j 1, j 2, eq_ix3 j⟩
  show k0_pay1 (F := Ideal) (iblk m c 1 t) (iblk m c 2 t) (iblk m c 3 t) (ix3 b r n) = _
  rw [mask_blk m c hL hU t b r n, View.read_apply]
  obtain ⟨-, -, -, -, -, -, -, -, -, -, -, e0, e1, e2, -⟩ := idx_facts t
  refine congrArg (Cert.ReferenceIdeal.ReadP.val_main_v20 (F := Ideal) (m ((c : Thread nD τ).loc main_arg1)) (m ((c : Thread nD τ).loc main_arg3))) (funext fun a => Fin.ext ?_)
  match a with
  | ⟨0, _⟩ => show 4 * t.val + b.val = win0_4.index t (0 : Fin 3) * 4 + 1 * b.val; rw [e0]; omega
  | ⟨1, _⟩ => show r.val = win0_4.index t (1 : Fin 3) * 16 + 1 * r.val; rw [e1]; omega
  | ⟨2, _⟩ => show n.val = win0_4.index t (2 : Fin 3) * 2048 + 1 * n.val; rw [e2]; omega

/-- Point t writes back, into the pooled array, the reference's pooled array (before its reshape) read through its block. -/
theorem flushed5_eq (t : Fin cfg0.N) :
    (dats m 0 c).flushed 5 t = ((cfg0.win 5).blk t).view.read (Elt Ideal) (Cert.ReferenceIdeal.ReadP.val_main_v28 (F := Ideal) (m ((c : Thread nD τ).loc main_arg0)) (m ((c : Thread nD τ).loc main_arg1)) (m ((c : Thread nD τ).loc main_arg3))) := by
  show (cfg0.win 5).cut (grid0.coords t) ((dats m 0 c).after 5 t) = _
  rw [after0_5]
  unfold out0_5
  rw [View.canon_unit_zero hz3]
  simp only [View.ld_unit_zero (S := S4x2048x256) hz3, View.ld_unit_zero (S := S4x16x2048) hz3, View.ld_unit_zero (S := S16x2048) hz2]
  funext j
  obtain ⟨b, r, d, rfl⟩ : ∃ (b : Fin 4) (r : Fin 16) (d : Fin 256), j = ix3 b r d := ⟨j 0, j 1, j 2, eq_ix3 j⟩
  show k0_pay2 (F := Ideal) (iblk m c 0 t) (iblk m c 1 t) (iblk m c 2 t) (iblk m c 3 t) (ix3 b r d) = _
  rw [pool_blk m c hL hU t b r d, View.read_apply]
  obtain ⟨-, -, -, -, -, -, -, -, -, -, -, -, -, -, e0, e1, e2⟩ := idx_facts t
  refine congrArg (Cert.ReferenceIdeal.ReadP.val_main_v28 (F := Ideal) (m ((c : Thread nD τ).loc main_arg0)) (m ((c : Thread nD τ).loc main_arg1)) (m ((c : Thread nD τ).loc main_arg3))) (funext fun a => Fin.ext ?_)
  match a with
  | ⟨0, _⟩ => show 4 * t.val + b.val = win0_5.index t (0 : Fin 3) * 4 + 1 * b.val; rw [e0]; omega
  | ⟨1, _⟩ => show r.val = win0_5.index t (1 : Fin 3) * 16 + 1 * r.val; rw [e1]; omega
  | ⟨2, _⟩ => show d.val = win0_5.index t (2 : Fin 3) * 256 + 1 * d.val; rw [e2]; omega

omit hL hU in
/-- An index of the mask array is in point t's block iff each coordinate is in the block's range on its axis. -/
theorem mem_blk4 (t : Fin cfg0.N) (i : S64x16x2048.Idx) :
    i ∈ ((cfg0.win 4).blk t).view.set ↔ ∀ a : Fin 3, win0_4.index t a * S4x16x2048.size a ≤ (i a).val ∧ (i a).val < win0_4.index t a * S4x16x2048.size a + S4x16x2048.size a := by
  show i ∈ ((View.whole main_v11_0).slice (win0_4.rect t)).set ↔ _
  rw [View.set_slice_whole, Rect.mem_set_unit]
  exact Iff.rfl

omit hL hU in
theorem mem_blk5 (t : Fin cfg0.N) (i : S64x16x256.Idx) :
    i ∈ ((cfg0.win 5).blk t).view.set ↔ ∀ a : Fin 3, win0_5.index t a * S4x16x256.size a ≤ (i a).val ∧ (i a).val < win0_5.index t a * S4x16x256.size a + S4x16x256.size a := by
  show i ∈ ((View.whole main_v11_1).slice (win0_5.rect t)).set ↔ _
  rw [View.set_slice_whole, Rect.mem_set_unit]
  exact Iff.rfl

omit hL hU in
/-- Every index of the mask array is in the block of the point that handles its graph: point g / 4. -/
theorem cover4 (i : S64x16x2048.Idx) : ∃ t : Fin cfg0.N, (cfg0.win 4).flush t = true ∧ i ∈ ((cfg0.win 4).blk t).view.set := by
  have h0 : (i 0).val < 64 := (i 0).isLt
  have h1 : (i 1).val < 16 := (i 1).isLt
  have h2 : (i 2).val < 2048 := (i 2).isLt
  have h16 : cfg0.N = 16 := N_0
  have ht : (i 0).val / 4 < cfg0.N := by omega
  obtain ⟨-, -, -, -, -, -, -, -, -, -, -, e0, e1, e2, -⟩ := idx_facts ⟨(i 0).val / 4, ht⟩
  refine ⟨⟨(i 0).val / 4, ht⟩, flush0_4 _, ?_⟩
  rw [mem_blk4]
  intro a
  match a with
  | ⟨0, _⟩ => show win0_4.index ⟨(i 0).val / 4, ht⟩ (0 : Fin 3) * 4 ≤ (i 0).val ∧ (i 0).val < win0_4.index ⟨(i 0).val / 4, ht⟩ (0 : Fin 3) * 4 + 4; rw [e0]; show (i 0).val / 4 * 4 ≤ (i 0).val ∧ (i 0).val < (i 0).val / 4 * 4 + 4; omega
  | ⟨1, _⟩ => show win0_4.index ⟨(i 0).val / 4, ht⟩ (1 : Fin 3) * 16 ≤ (i 1).val ∧ (i 1).val < win0_4.index ⟨(i 0).val / 4, ht⟩ (1 : Fin 3) * 16 + 16; rw [e1]; omega
  | ⟨2, _⟩ => show win0_4.index ⟨(i 0).val / 4, ht⟩ (2 : Fin 3) * 2048 ≤ (i 2).val ∧ (i 2).val < win0_4.index ⟨(i 0).val / 4, ht⟩ (2 : Fin 3) * 2048 + 2048; rw [e2]; omega

omit hL hU in
theorem cover5 (i : S64x16x256.Idx) : ∃ t : Fin cfg0.N, (cfg0.win 5).flush t = true ∧ i ∈ ((cfg0.win 5).blk t).view.set := by
  have h0 : (i 0).val < 64 := (i 0).isLt
  have h1 : (i 1).val < 16 := (i 1).isLt
  have h2 : (i 2).val < 256 := (i 2).isLt
  have h16 : cfg0.N = 16 := N_0
  have ht : (i 0).val / 4 < cfg0.N := by omega
  obtain ⟨-, -, -, -, -, -, -, -, -, -, -, -, -, -, e0, e1, e2⟩ := idx_facts ⟨(i 0).val / 4, ht⟩
  refine ⟨⟨(i 0).val / 4, ht⟩, flush0_5 _, ?_⟩
  rw [mem_blk5]
  intro a
  match a with
  | ⟨0, _⟩ => show win0_5.index ⟨(i 0).val / 4, ht⟩ (0 : Fin 3) * 4 ≤ (i 0).val ∧ (i 0).val < win0_5.index ⟨(i 0).val / 4, ht⟩ (0 : Fin 3) * 4 + 4; rw [e0]; show (i 0).val / 4 * 4 ≤ (i 0).val ∧ (i 0).val < (i 0).val / 4 * 4 + 4; omega
  | ⟨1, _⟩ => show win0_5.index ⟨(i 0).val / 4, ht⟩ (1 : Fin 3) * 16 ≤ (i 1).val ∧ (i 1).val < win0_5.index ⟨(i 0).val / 4, ht⟩ (1 : Fin 3) * 16 + 16; rw [e1]; omega
  | ⟨2, _⟩ => show win0_5.index ⟨(i 0).val / 4, ht⟩ (2 : Fin 3) * 256 ≤ (i 2).val ∧ (i 2).val < win0_5.index ⟨(i 0).val / 4, ht⟩ (2 : Fin 3) * 256 + 256; rw [e2]; omega

/-- The mask array after the run is the reference's mask array. -/
theorem final4 : (dats m 0 c).arrAt 4 cfg0.N = Cert.ReferenceIdeal.ReadP.val_main_v20 (F := Ideal) (m ((c : Thread nD τ).loc main_arg1)) (m ((c : Thread nD τ).loc main_arg3)) :=
  (dats m 0 c).arrAt_eq_of_cover 4 _ (fun t _ => flushed4_eq m c hL hU t) cover4

/-- The pooled array after the run is the reference's pooled array before its reshape. -/
theorem final5 : (dats m 0 c).arrAt 5 cfg0.N = Cert.ReferenceIdeal.ReadP.val_main_v28 (F := Ideal) (m ((c : Thread nD τ).loc main_arg0)) (m ((c : Thread nD τ).loc main_arg1)) (m ((c : Thread nD τ).loc main_arg3)) :=
  (dats m 0 c).arrAt_eq_of_cover 5 _ (fun t _ => flushed5_eq m c hL hU t) cover5

end Cert.KernelIdeal.Val

end
-- ==== Proof.KTail.lean ====
/-
  The kernel program's operations after the region: the pooled array [64, 16, 256] reshaped to [1024, 256]; the channel-1
  logits broadcast over the graphs; the graph index of each pooled row. The last two are the same operations the
  reference runs, so their results are the reference's stages.
-/
import proofs.«126894_j51436528337257_2_alg».proof.Proof.Gen.KernelIdeal.Frame
import proofs.«126894_j51436528337257_2_alg».proof.Proof.RefRead

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]
variable (W : Valuation τ sig (Elt F))

theorem tail_v12 : after hostOps1 W (Proc.devRef .tc main_v12)
    = shapeCast S1024x256 (W (Proc.devRef .tc main_v11_1)) shapeCasts_S64x16x256_S1024x256 := by
  after_results; rfl
theorem tail_v16 : after hostOps1 W (Proc.devRef .tc main_v16)
    = Cert.ReferenceIdeal.ReadP.val_main_v33 (F := F) (W (Proc.devRef .tc main_arg1)) := by
  after_results; rfl
theorem tail_v19 : after hostOps1 W (Proc.devRef .tc main_v19) = Cert.ReferenceIdeal.ReadP.val_main_v36 (F := F) := by
  after_results; rfl

end Cert.KernelIdeal.Tail

end
-- ==== Proof.PreDecode.lean ====
/-
  THE PRECONDITION READ BACK. The precondition is a conjunction of five statements, each "every element of an array
  passes a comparison", and the claim's hypothesis says the conjunction is true (the one-bit word 1). A conjunction of
  one-bit words is 1 only if both words are; a reduction by "and" over all axes is 1 only if every element is. So every
  element passes its comparison: |l i| < +∞, |u i| < +∞, 0 < u i and u i < 1 on the extended reals, where |y| is
  max y (-y). An extended real with |y| < +∞ is neither infinity, hence a real number r; and then 0 < r < 1 for u.
-/
import proofs.«126894_j51436528337257_2_alg».proof.Pre_finite_inputs
import Idealize.ShloMosaic.PureOps.Ideal
import Idealize.ShloMosaic.Lib.ReduceAll
import Idealize.ShloMosaic.Lib.IdealHost

noncomputable section

namespace Cert.PreDecode

open Idealize.ShloMosaic Idealize.ShloMosaic.ValueIdx
open Cert.Pre_finite_inputs

/-- The scalar shape has one index. -/
instance subsingleton_S_Idx : Subsingleton S_.Idx := ⟨fun a b => funext fun d => d.elim0⟩

/-- A one-bit word built from a Boolean is 1 exactly when the Boolean is true. -/
theorem ofBool_eq_one (c : Bool) : BitVec.ofBool c = 1#1 ↔ c = true := by cases c <;> decide

/-- The f32 pattern with all exponent bits set and no fraction bit is plus infinity. -/
theorem ofBits_inf_f32 : Ideal.ofBits .f32 0x7F800000#32 = ⊤ := by simp [Ideal.ofBits, Ideal.ieee]

/-- The ordered comparison "less than" is 1 exactly when the left value is below the right one. -/
theorem cmp_olt (y z : EReal) : Ideal.cmp .olt y z = 1#1 ↔ y < z := by
  unfold Ideal.cmp; rw [ofBool_eq_one]; exact decide_eq_true_iff

/-- The ordered comparison "greater than" is 1 exactly when the right value is below the left one. -/
theorem cmp_ogt (y z : EReal) : Ideal.cmp .ogt y z = 1#1 ↔ z < y := by
  unfold Ideal.cmp; rw [ofBool_eq_one]; exact decide_eq_true_iff

/-- An extended real whose absolute value max y (-y) is below plus infinity is a real number. -/
theorem real_of_abs_lt_top (y : EReal) (e : max y (-y) < ⊤) : ∃ r : ℝ, y = (r : EReal) := by
  induction y using EReal.rec with
  | bot => simp at e
  | coe r => exact ⟨r, rfl⟩
  | top => simp at e

/-- The precondition decoded: every mask logit is a real number, and every uniform sample is a real number strictly
    between 0 and 1. -/
theorem of_pre [Cert.Pre_finite_inputs.Facts]
    (x : FVec Ideal S131072x256 .f32) (l : FVec Ideal S16x2048x2 .f32)
    (b : IVec S131072 32) (u : FVec Ideal S64x16x2048x2 .f32)
    (h : Cert.Pre_finite_inputs.fn (F := Ideal) x l b u = fun _ => 1#1) :
    (∀ i, ∃ r : ℝ, l i = (r : EReal)) ∧ (∀ i, ∃ r : ℝ, u i = (r : EReal) ∧ 0 < r ∧ r < 1) := by
  have e := congrFun h ix0
  dsimp only [Cert.Pre_finite_inputs.fn, Cert.Pre_finite_inputs.fn_part1] at e
  simp only [andi, IntOp.andi_eq_one] at e
  obtain ⟨⟨⟨⟨hx, hl⟩, hu⟩, hu0⟩, hu1⟩ := e
  refine ⟨fun i => ?_, fun i => ?_⟩
  · have a := Host.reduce_andi_all _ _ _ _ _ hl i
    change Ideal.cmp .olt (max (l i) (-(l i))) (Ideal.ofBits .f32 0x7F800000#32) = 1#1 at a
    rw [cmp_olt, ofBits_inf_f32] at a
    exact real_of_abs_lt_top _ a
  · have a := Host.reduce_andi_all _ _ _ _ _ hu i
    have a0 := Host.reduce_andi_all _ _ _ _ _ hu0 i
    have a1 := Host.reduce_andi_all _ _ _ _ _ hu1 i
    change Ideal.cmp .olt (max (u i) (-(u i))) (Ideal.ofBits .f32 0x7F800000#32) = 1#1 at a
    change Ideal.cmp .ogt (u i) (Ideal.ofBits .f32 0x00000000#32) = 1#1 at a0
    change Ideal.cmp .olt (u i) (Ideal.ofBits .f32 0x3F800000#32) = 1#1 at a1
    rw [cmp_olt, ofBits_inf_f32] at a
    rw [cmp_ogt, Ideal.ofBits_zero_f32] at a0
    rw [cmp_olt, Ideal.ofBits_one_f32] at a1
    obtain ⟨r, hr⟩ := real_of_abs_lt_top _ a
    rw [hr] at a0 a1
    exact ⟨r, hr, EReal.coe_pos.1 a0, by exact_mod_cast a1⟩

end Cert.PreDecode

end
-- ==== Proof.KRun.lean ====
/-
  The kernel program's run with its four results named: every weakly fair execution terminates with the pooled rows,
  the masks, the broadcast logits and the graph indices each at the reference's stage of the same arguments, and the
  arguments unchanged. The two arrays the region writes are read off the run's proof data (the blocks tile them); the
  three results of the operations after the region are those operations applied to the arrays the region left.
-/
import proofs.«126894_j51436528337257_2_alg».proof.Proof.KValue
import proofs.«126894_j51436528337257_2_alg».proof.Proof.KTail
import proofs.«126894_j51436528337257_2_alg».proof.Proof.PreDecode
import proofs.«126894_j51436528337257_2_alg».proof.Proof.Gen.Pre_finite_inputs

set_option maxRecDepth 16384

noncomputable section

namespace Cert.KernelIdeal.Run

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

theorem run (hpre : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) = fun _ => 1#1) :
    θ_run defs (onTc (τ := τ) (main (F := Ideal))) ⟨m, fun _ => 0, ρ⟩ fun r => ∀ c : Dev nD,
      r.2.mem ((c.tc : Thread nD τ).loc main_v12) = Cert.ReferenceIdeal.ReadP.val_main_v29 (F := Ideal) (m ((c.tc : Thread nD τ).loc main_arg0)) (m ((c.tc : Thread nD τ).loc main_arg1)) (m ((c.tc : Thread nD τ).loc main_arg3))
      ∧ r.2.mem ((c.tc : Thread nD τ).loc main_v11_0) = Cert.ReferenceIdeal.ReadP.val_main_v20 (F := Ideal) (m ((c.tc : Thread nD τ).loc main_arg1)) (m ((c.tc : Thread nD τ).loc main_arg3))
      ∧ r.2.mem ((c.tc : Thread nD τ).loc main_v16) = Cert.ReferenceIdeal.ReadP.val_main_v33 (F := Ideal) (m ((c.tc : Thread nD τ).loc main_arg1))
      ∧ r.2.mem ((c.tc : Thread nD τ).loc main_v19) = Cert.ReferenceIdeal.ReadP.val_main_v36 (F := Ideal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  obtain ⟨hL, hU⟩ := Cert.PreDecode.of_pre _ _ _ _ (hpre c)
  refine ⟨?_, ?_, ?_, ?_, ?_, ?_, ?_, ?_⟩
  · refine ((h c).2 main_v12 (Pipeline.mem_restRefs_of main_v12 (by decide) (by decide))).trans ?_
    unfold Pipeline.afterTail₀
    show StableHlo.after hostOps1 _ (Proc.devRef .tc main_v12) = _
    rw [Tail.tail_v12, Pipeline.withArrays_arr spec0 launch0.win.arr_inj c _ _ 5, Val.final5 m c hL hU]
    rfl
  · exact ((h c).1 4).trans (Val.final4 m c hL hU)
  · refine ((h c).2 main_v16 (Pipeline.mem_restRefs_of main_v16 (by decide) (by decide))).trans ?_
    unfold Pipeline.afterTail₀
    show StableHlo.after hostOps1 _ (Proc.devRef .tc main_v16) = _
    rw [Tail.tail_v16, Pipeline.withArrays_of_ne _ c (V0 m c) _ main_arg1 (by exact (by decide : ∀ w, Pipeline.arrRef spec0 w ≠ main_arg1))]
    exact congrArg _ (V_main_arg1 m c)
  · refine ((h c).2 main_v19 (Pipeline.mem_restRefs_of main_v19 (by decide) (by decide))).trans ?_
    unfold Pipeline.afterTail₀
    show StableHlo.after hostOps1 _ (Proc.devRef .tc main_v19) = _
    rw [Tail.tail_v19]
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)
  · exact ((h c).2 main_arg3 (Pipeline.mem_restRefs_of main_arg3 (by decide) (by decide))).trans (W_main_arg3 m (dats m) c)

end Cert.KernelIdeal.Run

end
-- ==== Proof.RefStages.lean ====
/-
  The reference's results as the stages of its operations, without ever writing a composed term out: the program's
  fifty-six operations are cut into five consecutive stretches; over each stretch the buffer a later stretch reads is
  the corresponding stage of the buffers the stretch starts from, and the buffers it does not write pass through.
-/
import proofs.«126894_j51436528337257_2_alg».proof.Proof.RefRead
import proofs.«126894_j51436528337257_2_alg».proof.Proof.LibAfterAppend

noncomputable section

namespace Cert.ReferenceIdeal.Stages

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

variable (W : Valuation τ sig (Elt F))
variable (x0 : (⟨S131072x256, .f32⟩ : BufTy).Contents (Elt F)) (x1 : (⟨S16x2048x2, .f32⟩ : BufTy).Contents (Elt F))
  (x3 : (⟨S64x16x2048x2, .f32⟩ : BufTy).Contents (Elt F))

/-! ## Stretch A: the log-softmax of the mask logits -/

set_option maxRecDepth 100000 in
theorem A_v0 : after opsA W (Proc.devRef .tc main_v0) = val_main_v0 (F := F) (W (Proc.devRef .tc main_arg1)) := by
  after_results; rfl
theorem A_arg0 : after opsA W (Proc.devRef .tc main_arg0) = W (Proc.devRef .tc main_arg0) := by after_results
theorem A_arg1 : after opsA W (Proc.devRef .tc main_arg1) = W (Proc.devRef .tc main_arg1) := by after_results
theorem A_arg3 : after opsA W (Proc.devRef .tc main_arg3) = W (Proc.devRef .tc main_arg3) := by after_results

/-! ## Stretch B: the scores, log-probability plus Gumbel noise -/

theorem B_v7 (h0 : W (Proc.devRef .tc main_v0) = val_main_v0 (F := F) x1) (h3 : W (Proc.devRef .tc main_arg3) = x3) :
    after opsB W (Proc.devRef .tc main_v7) = val_main_v7 (F := F) x1 x3 := by
  after_results; rw [h0, h3]; rfl
theorem B_arg0 : after opsB W (Proc.devRef .tc main_arg0) = W (Proc.devRef .tc main_arg0) := by after_results
theorem B_arg1 : after opsB W (Proc.devRef .tc main_arg1) = W (Proc.devRef .tc main_arg1) := by after_results

/-! ## Stretch C: the softmax over the two channels and its channel 1 -/

theorem C_v20 (h7 : W (Proc.devRef .tc main_v7) = val_main_v7 (F := F) x1 x3) :
    after opsC W (Proc.devRef .tc main_v20) = val_main_v20 (F := F) x1 x3 := by
  after_results; rw [h7]; rfl
theorem C_arg0 : after opsC W (Proc.devRef .tc main_arg0) = W (Proc.devRef .tc main_arg0) := by after_results
theorem C_arg1 : after opsC W (Proc.devRef .tc main_arg1) = W (Proc.devRef .tc main_arg1) := by after_results

/-! ## Stretch D: the pooled features -/

theorem D_v29 (h20 : W (Proc.devRef .tc main_v20) = val_main_v20 (F := F) x1 x3) (h0 : W (Proc.devRef .tc main_arg0) = x0) :
    after opsD W (Proc.devRef .tc main_v29) = val_main_v29 (F := F) x0 x1 x3 := by
  after_results; rw [h20, h0]; rfl
theorem D_v20 : after opsD W (Proc.devRef .tc main_v20) = W (Proc.devRef .tc main_v20) := by after_results
theorem D_arg1 : after opsD W (Proc.devRef .tc main_arg1) = W (Proc.devRef .tc main_arg1) := by after_results

/-! ## Stretch E: the broadcast logits and the graph index of each pooled row -/

theorem E_v33 (h1 : W (Proc.devRef .tc main_arg1) = x1) :
    after opsE W (Proc.devRef .tc main_v33) = val_main_v33 (F := F) x1 := by
  after_results; rw [h1]; rfl
theorem E_v36 : after opsE W (Proc.devRef .tc main_v36) = val_main_v36 (F := F) := by
  after_results; rfl
theorem E_v29 : after opsE W (Proc.devRef .tc main_v29) = W (Proc.devRef .tc main_v29) := by after_results
theorem E_v20 : after opsE W (Proc.devRef .tc main_v20) = W (Proc.devRef .tc main_v20) := by after_results

/-! ## The whole line -/

/-- After the whole program each result buffer holds its stage of the three float arguments. -/
theorem results (V : Valuation τ sig (Elt F)) :
    after ops V (Proc.devRef .tc main_v29)
        = val_main_v29 (F := F) (V (Proc.devRef .tc main_arg0)) (V (Proc.devRef .tc main_arg1)) (V (Proc.devRef .tc main_arg3))
    ∧ after ops V (Proc.devRef .tc main_v20) = val_main_v20 (F := F) (V (Proc.devRef .tc main_arg1)) (V (Proc.devRef .tc main_arg3))
    ∧ after ops V (Proc.devRef .tc main_v33) = val_main_v33 (F := F) (V (Proc.devRef .tc main_arg1))
    ∧ after ops V (Proc.devRef .tc main_v36) = val_main_v36 (F := F) := by
  rw [ops_split]
  simp only [Cert.LibAfterAppend.after_append]
  have a0 := A_v0 V
  have a00 := A_arg0 V
  have a1 := A_arg1 V
  have a3 := A_arg3 V
  have b7 := B_v7 (after opsA V) _ _ a0 a3
  have b0 := (B_arg0 (after opsA V)).trans a00
  have b1 := (B_arg1 (after opsA V)).trans a1
  have c20 := C_v20 (after opsB (after opsA V)) _ _ b7
  have c0 := (C_arg0 (after opsB (after opsA V))).trans b0
  have c1 := (C_arg1 (after opsB (after opsA V))).trans b1
  have d29 := D_v29 (after opsC (after opsB (after opsA V))) _ _ _ c20 c0
  have d20 := (D_v20 (after opsC (after opsB (after opsA V)))).trans c20
  have d1 := (D_arg1 (after opsC (after opsB (after opsA V)))).trans c1
  exact ⟨(E_v29 _).trans d29, (E_v20 _).trans d20, E_v33 _ _ d1, E_v36 _⟩

end Cert.ReferenceIdeal.Stages

end
-- ==== Proof.RefArgs.lean ====
/-
  The reference writes none of its arguments: after its whole line of operations each argument buffer holds what it held.
-/
import proofs.«126894_j51436528337257_2_alg».proof.Proof.RefRun

noncomputable section

namespace Cert.ReferenceIdeal.Args

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]
variable (V : Valuation τ sig (Elt F))

set_option maxRecDepth 8192 in
theorem kept : after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3) := by
  refine ⟨?_, ?_, ?_, ?_⟩ <;> after_results_simp

end Cert.ReferenceIdeal.Args

end
-- ==== Proof.lean ====
/-
  The claim: the pooling kernel against its reference, at the ideal values.

  Both programs take node features x [131072, 256] (64 graphs of 2048 nodes), mask logits [16, 2048, 2] and uniform
  draws u [64, 16, 2048, 2]. With a = log_softmax(logits) over the last axis and gum u = −log(−log u), the reference's
  soft mask at (g, r, n) is channel 1 of softmax(a + gum u) over the two channels; the kernel computes
  σ((a₁ − a₀) + gum u₁ − gum u₀). For finite logits a is real, and for draws strictly between 0 and 1 the noise is real,
  and then the two are one number: exp(z₁ − M)/(exp(z₀ − M) + exp(z₁ − M)) = 1/(1 + exp(−(z₁ − z₀))). The pooled rows
  are the same mask-weighted sums over each graph's nodes divided by the same row sums plus the same constant; the
  kernel computes them four graphs per grid point and the sixteen points' blocks tile the arrays. The remaining two
  results, the broadcast channel-1 logits and each pooled row's graph index, are the same operations in both programs.

  The precondition asks finite inputs and 0 < u < 1: outside that range the reference's own logarithms leave their
  domain (at u = 1 a score is +∞ and the softmax's shift gives ∞ − ∞), and the two programs differ there.

  The frames of the two kernel programs are the generated ones; the reference's frame is its run with the results
  dropped. Nothing was rewritten between the printed kernel and its idealization, so that conjunct is trivial.
-/
import proofs.«126894_j51436528337257_2_alg».proof.Defs
import proofs.«126894_j51436528337257_2_alg».proof.Proof.Gen.Kernel
import proofs.«126894_j51436528337257_2_alg».proof.Proof.Gen.Kernel.Skeleton
import proofs.«126894_j51436528337257_2_alg».proof.Proof.Gen.Kernel.Launch
import proofs.«126894_j51436528337257_2_alg».proof.Proof.Gen.Kernel.Points
import proofs.«126894_j51436528337257_2_alg».proof.Proof.Gen.Kernel.Frame
import proofs.«126894_j51436528337257_2_alg».proof.Proof.Gen.KernelIdeal
import proofs.«126894_j51436528337257_2_alg».proof.Proof.Gen.KernelIdeal.Skeleton
import proofs.«126894_j51436528337257_2_alg».proof.Proof.Gen.KernelIdeal.Launch
import proofs.«126894_j51436528337257_2_alg».proof.Proof.Gen.KernelIdeal.Points
import proofs.«126894_j51436528337257_2_alg».proof.Proof.Gen.KernelIdeal.Frame
import proofs.«126894_j51436528337257_2_alg».proof.Proof.Gen.ReferenceIdeal
import proofs.«126894_j51436528337257_2_alg».proof.Proof.Gen.Pre_finite_inputs
import proofs.«126894_j51436528337257_2_alg».proof.Proof.KRun
import proofs.«126894_j51436528337257_2_alg».proof.Proof.RefStages
import proofs.«126894_j51436528337257_2_alg».proof.Proof.RefArgs
import Idealize.ShloMosaic.Adequacy
import Idealize.ShloMosaic.Init

noncomputable section

namespace Cert.Proof

open Idealize.ShloMosaic Idealize.SL.Sem

/-- The reference writes none of its arguments: its run, every buffer at the fold of its operations, read at the arguments. -/
theorem frame_ref : Cert.frame_ReferenceIdeal := fun m ρ _ =>
  (θ_run Cert.ReferenceIdeal.defs _ _).mono (fun _ h c =>
    ⟨(h c _).trans (Cert.ReferenceIdeal.Args.kept _).1, (h c _).trans (Cert.ReferenceIdeal.Args.kept _).2.1,
      (h c _).trans (Cert.ReferenceIdeal.Args.kept _).2.2.1, (h c _).trans (Cert.ReferenceIdeal.Args.kept _).2.2.2⟩)
    (Cert.ReferenceIdeal.RunP.run_after (F := Ideal) m ρ)

/-- Both programs end with the reference's stages of the arguments: the kernel's run names them, and the reference's
    run reaches them stretch by stretch, from memories that agree on the arguments. -/
theorem algebraic : Cert.algebraic_KernelIdeal_ReferenceIdeal := by
  intro m ρ m' ρ' hpre hagree
  refine ⟨_, _, _, _, Cert.KernelIdeal.Run.run m ρ hpre, ?_⟩
  refine (θ_run Cert.ReferenceIdeal.defs _ _).mono (fun _ h c => ?_) (Cert.ReferenceIdeal.RunP.run_after (F := Ideal) m' ρ')
  obtain ⟨r29, r20, r33, r36⟩ := Cert.ReferenceIdeal.Stages.results (F := Ideal) (StableHlo.launchContents m' c)
  obtain ⟨k0, k1, k2, k3⟩ := Cert.ReferenceIdeal.Args.kept (F := Ideal) (StableHlo.launchContents m' c)
  obtain ⟨a0, a1, a2, a3⟩ := hagree c
  refine ⟨(h c _).trans (r29.trans ?_), (h c _).trans (r20.trans ?_), (h c _).trans (r33.trans ?_), (h c _).trans r36,
    (h c _).trans k0, (h c _).trans k1, (h c _).trans k2, (h c _).trans k3⟩
  · rw [← a0, ← a1, ← a3]
  · rw [← a1, ← a3]
  · rw [← a1]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ref, trivial, algebraic⟩

end Cert.Proof

end
